-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1200000 : Shape := ⟨1, ![1200000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg9 : FVec F S64x16 .f32) (main_arg10 : FVec F S16 .f32) (main_v33 : IVec S_ 1) : IVec S_ 1 :=
  let main_v34 : FVec F S64x16 .f32 := Host.absf main_arg9
  let main_cst_12 : FVec F S_ .f32 := constant S_ .f32 0x7F800000#32
  let main_v35 : FVec F S64x16 .f32 := broadcastInDim S64x16 ![] bcast_S_S64x16 main_cst_12
  let main_v36 : IVec S64x16 1 := cmpf .olt main_v34 main_v35
  let main_c_13 : IVec S_ 1 := constantI S_ 1 1#1
  let main_v37 : IVec S_ 1 := (fun x v => Host.reduce IntOp.andi x v reducesTo_S64x16_S_d0_1 h_S_) main_v36 main_c_13
  let main_v38 : IVec S_ 1 := andi main_v33 main_v37
  let main_v39 : FVec F S16 .f32 := Host.absf main_arg10
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  main_v43

def fn_part1 {F : FTy → Type} [FloatOps F] (main_arg6 : FVec F S64x64 .f32) (main_arg7 : FVec F S64x64 .f32) (main_arg8 : FVec F S64 .f32) (main_arg9 : FVec F S64x16 .f32) (main_arg10 : FVec F S16 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_v33

def fn {F : FTy → Type} [FloatOps F] (main_arg0 : FVec F S100000x64 .f32) (main_arg1 : IVec S1200000 32) (main_arg2 : IVec S1200000 32) (main_arg3 : FVec F S64x64 .f32) (main_arg4 : FVec F S64x64 .f32) (main_arg5 : FVec F S64 .f32) (main_arg6 : FVec F S64x64 .f32) (main_arg7 : FVec F S64x64 .f32) (main_arg8 : FVec F S64 .f32) (main_arg9 : FVec F S64x16 .f32) (main_arg10 : FVec F S16 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_v13 main_v16
-- ==== Kernel.lean ====
abbrev S100000x64 : Shape := ⟨2, ![100000, 64]⟩
abbrev S1200000 : Shape := ⟨1, ![1200000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S_ : Shape := ⟨0, ![]⟩
abbrev S100000 : Shape := ⟨1, ![100000]⟩
abbrev S1200000x1 : Shape := ⟨2, ![1200000, 1]⟩
abbrev S100000x1 : Shape := ⟨2, ![100000, 1]⟩
abbrev S1200000x64 : Shape := ⟨2, ![1200000, 64]⟩
abbrev S1x64 : Shape := ⟨2, ![1, 64]⟩
abbrev S5000x64 : Shape := ⟨2, ![5000, 64]⟩
abbrev S5000x1 : Shape := ⟨2, ![5000, 1]⟩
abbrev S1x16 : Shape := ⟨2, ![1, 16]⟩
abbrev S100000x16 : Shape := ⟨2, ![100000, 16]⟩
abbrev S5000x16 : Shape := ⟨2, ![5000, 16]⟩
abbrev S5000 : Shape := ⟨1, ![5000]⟩

abbrev nBuf : Space → Nat
  | .hbm => 62
  | .vmem => 24
  | .smem => 0
  | _ => 0

abbrev bufTy : (tb : Table) → Fin (tcTables nBuf tb) → BufTy
  | .hbm, ⟨0, _⟩ => ⟨S100000x64, .f32⟩
  | .hbm, ⟨1, _⟩ => ⟨S1200000, .i32⟩
  | .hbm, ⟨2, _⟩ => ⟨S1200000, .i32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S64x16, .f32⟩
  | .hbm, ⟨10, _⟩ => ⟨S16, .f32⟩
  | .hbm, ⟨11, _⟩ => ⟨S_, .f32⟩
  | .hbm, ⟨12, _⟩ => ⟨S1200000, .f32⟩
  | .hbm, ⟨13, _⟩ => ⟨S_, .f32⟩
  | .hbm, ⟨14, _⟩ => ⟨S100000, .f32⟩
  | .hbm, ⟨15, _⟩ => ⟨S1200000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S_, .i32⟩
  | .hbm, ⟨32, _⟩ => ⟨S1200000, .i32⟩
  | .hbm, ⟨33, _⟩ => ⟨S1200000, .i1⟩
  | .hbm, ⟨34, _⟩ => ⟨S_, .i32⟩
  | .hbm, ⟨35, _⟩ => ⟨S1200000, .i32⟩
  | .hbm, ⟨36, _⟩ => ⟨S1200000, .i32⟩
  | .hbm, ⟨37, _⟩ => ⟨S1200000, .i32⟩
  | .hbm, ⟨38, _⟩ => ⟨S1200000x1, .i32⟩
  | .hbm, ⟨39, _⟩ => ⟨S1200000x64, .f32⟩
  | .hbm, ⟨40, _⟩ => ⟨S_, .f32⟩
  | .hbm, ⟨41, _⟩ => ⟨S100000x64, .f32⟩
  | .hbm, ⟨42, _⟩ => ⟨S1200000x1, .i32⟩
  | .hbm, ⟨43, _⟩ => ⟨S100000x64, .f32⟩
  | .hbm, ⟨44, _⟩ => ⟨S1x64, .f32⟩
  | .hbm, ⟨45, _⟩ => ⟨S100000x64, .f32⟩
  | .hbm, ⟨46, _⟩ => ⟨S_, .i32⟩
  | .hbm, ⟨47, _⟩ => ⟨S1200000, .i32⟩
  | .hbm, ⟨48, _⟩ => ⟨S1200000, .i1⟩
  | .hbm, ⟨49, _⟩ => ⟨S_, .i32⟩
  | .hbm, ⟨50, _⟩ => ⟨S1200000, .i32⟩
  | .hbm, ⟨51, _⟩ => ⟨S1200000, .i32⟩
  | .hbm, ⟨52, _⟩ => ⟨S1200000, .i32⟩
  | .hbm, ⟨53, _⟩ => ⟨S1200000x1, .i32⟩
  | .hbm, ⟨54, _⟩ => ⟨S1200000x64, .f32⟩
  | .hbm, ⟨55, _⟩ => ⟨S_, .f32⟩
  | .hbm, ⟨56, _⟩ => ⟨S100000x64, .f32⟩
  | .hbm, ⟨57, _⟩ => ⟨S1200000x1, .i32⟩
  | .hbm, ⟨58, _⟩ => ⟨S100000x64, .f32⟩
  | .hbm, ⟨59, _⟩ => ⟨S1x64, .f32⟩
  | .hbm, ⟨60, _⟩ => ⟨S1x16, .f32⟩
  | .hbm, ⟨61, _⟩ => ⟨S100000x16, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x1, .f32⟩
  | .local _ .vmem, ⟨5, _⟩ => ⟨S5000x1, .f32⟩
  | .local _ .vmem, ⟨6, _⟩ => ⟨S64x64, .f32⟩
  | .local _ .vmem, ⟨7, _⟩ => ⟨S64x64, .f32⟩
  | .local _ .vmem, ⟨8, _⟩ => ⟨S1x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x1, .f32⟩
  | .local _ .vmem, ⟨16, _⟩ => ⟨S5000x1, .f32⟩
  | .local _ .vmem, ⟨17, _⟩ => ⟨S64x64, .f32⟩
  | .local _ .vmem, ⟨18, _⟩ => ⟨S64x64, .f32⟩
  | .local _ .vmem, ⟨19, _⟩ => ⟨S1x64, .f32⟩
  | .local _ .vmem, ⟨20, _⟩ => ⟨S64x16, .f32⟩
  | .local _ .vmem, ⟨21, _⟩ => ⟨S1x16, .f32⟩
  | .local _ .vmem, ⟨22, _⟩ => ⟨S5000x16, .f32⟩
  | .local _ .vmem, ⟨23, _⟩ => ⟨S5000x16, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_cst_2 : Ref sig .tc := ⟨.hbm, 20, rfl⟩
abbrev main_v6 : Ref sig .tc := ⟨.hbm, 21, rfl⟩
abbrev main_v7 : Ref sig .tc := ⟨.hbm, 22, rfl⟩
abbrev main_cst_3 : Ref sig .tc := ⟨.hbm, 23, rfl⟩
abbrev main_v8 : Ref sig .tc := ⟨.hbm, 24, rfl⟩
abbrev main_v9 : Ref sig .tc := ⟨.hbm, 25, rfl⟩
abbrev main_cst_4 : Ref sig .tc := ⟨.hbm, 26, rfl⟩
abbrev main_call0_v0 : Ref sig .tc := ⟨.hbm, 27, rfl⟩
abbrev main_call0_v1 : Ref sig .tc := ⟨.hbm, 28, rfl⟩
abbrev main_v10 : Ref sig .tc := ⟨.hbm, 29, rfl⟩
abbrev main_v11 : Ref sig .tc := ⟨.hbm, 30, rfl⟩
abbrev main_c : Ref sig .tc := ⟨.hbm, 31, rfl⟩
abbrev main_v12 : Ref sig .tc := ⟨.hbm, 32, rfl⟩
abbrev main_v13 : Ref sig .tc := ⟨.hbm, 33, rfl⟩
abbrev main_c_5 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_6 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c_7 : Ref sig .tc := ⟨.hbm, 46, rfl⟩
abbrev main_v24 : Ref sig .tc := ⟨.hbm, 47, rfl⟩
abbrev main_v25 : Ref sig .tc := ⟨.hbm, 48, rfl⟩
abbrev main_c_8 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_9 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg8_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem8_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x16 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x16 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x16 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S16_S1x16 : S16.ShapeCasts S1x16
  inb_S64x16_S64x16_0_0 : ∀ a, (![0, 0] : Fin 2 → Nat) a + S64x16.size a ≤ S64x16.size a
  h_S64x16 : 0 < S64x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  reduces_S5000x16_S5000 : S5000x16.Reduces [1] S5000
  shapeCasts_S5000_S5000x1 : S5000.ShapeCasts S5000x1
  broadcasts_S5000x1_S5000x16 : S5000x1.Broadcasts S5000x16
  inb_S5000x16_S5000x16_0_0 : ∀ a, (![0, 0] : Fin 2 → Nat) a + S5000x16.size a ≤ S5000x16.size a
  h_S5000x16 : 0 < S5000x16.numel
  scatter_S100000_S1200000x1_S1200000_n_0_0_1_wf : ScatterDims.WF S100000 S1200000x1 S1200000 [] [0] [0] 1
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S5000x64_S64x64_S5000x64_1_0_0_1_n_n_wf : DotDims.WF S5000x64 S64x64 S5000x64 [1] [0] [0] [1] [] []
  dot_S5000x64_S64x16_S5000x16_1_0_0_1_n_n_wf : DotDims.WF S5000x64 S64x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x16.size a ≤ S64x16.size a
  hwx1_6 : ∀ i : grid1.Coords, EltTy.bits .f32 = 32 ∨ (Rect.block (s := S64x16) S64x16.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x16.size a ≤ S1x16.size a
  hwx1_7 : ∀ i : grid1.Coords, EltTy.bits .f32 = 32 ∨ (Rect.block (s := S1x16) S1x16.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x16.size a ≤ S100000x16.size a
  hwx1_8 : ∀ i : grid1.Coords, EltTy.bits .f32 = 32 ∨ (Rect.block (s := S100000x16) S5000x16.size (cc1_transform_8 i) (hinb1_8 i)).WholeWords (EltTy.packing .f32)

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x16_S5000x16_1_0_0_1_n_n : DotDims S5000x64 S64x16 S5000x16 where
  lhsContracting := [1]
  rhsContracting := [0]
  lhsNonContracting := [0]
  rhsNonContracting := [1]
  lhsBatch := []
  rhsBatch := []
  wf := dot_S5000x64_S64x16_S5000x16_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v23) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S64x16.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v35) S1x16.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v36) S5000x16.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S100000x64 : Shape := ⟨2, ![100000, 64]⟩
abbrev S1200000 : Shape := ⟨1, ![1200000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S_ : Shape := ⟨0, ![]⟩
abbrev S100000 : Shape := ⟨1, ![100000]⟩
abbrev S1200000x1 : Shape := ⟨2, ![1200000, 1]⟩
abbrev S100000x1 : Shape := ⟨2, ![100000, 1]⟩
abbrev S1200000x64 : Shape := ⟨2, ![1200000, 64]⟩
abbrev S1x64 : Shape := ⟨2, ![1, 64]⟩
abbrev S100000x16 : Shape := ⟨2, ![100000, 16]⟩
abbrev S1x16 : Shape := ⟨2, ![1, 16]⟩

abbrev nBuf : Space → Nat
  | .hbm => 97
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1200000, .i32⟩
  | .hbm, ⟨2, _⟩ => ⟨S1200000, .i32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S64x16, .f32⟩
  | .hbm, ⟨10, _⟩ => ⟨S16, .f32⟩
  | .hbm, ⟨11, _⟩ => ⟨S_, .f32⟩
  | .hbm, ⟨12, _⟩ => ⟨S1200000, .f32⟩
  | .hbm, ⟨13, _⟩ => ⟨S_, .f32⟩
  | .hbm, ⟨14, _⟩ => ⟨S100000, .f32⟩
  | .hbm, ⟨15, _⟩ => ⟨S1200000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S_, .i32⟩
  | .hbm, ⟨32, _⟩ => ⟨S1200000, .i32⟩
  | .hbm, ⟨33, _⟩ => ⟨S1200000, .i1⟩
  | .hbm, ⟨34, _⟩ => ⟨S_, .i32⟩
  | .hbm, ⟨35, _⟩ => ⟨S1200000, .i32⟩
  | .hbm, ⟨36, _⟩ => ⟨S1200000, .i32⟩
  | .hbm, ⟨37, _⟩ => ⟨S1200000, .i32⟩
  | .hbm, ⟨38, _⟩ => ⟨S1200000x1, .i32⟩
  | .hbm, ⟨39, _⟩ => ⟨S1200000x64, .f32⟩
  | .hbm, ⟨40, _⟩ => ⟨S_, .f32⟩
  | .hbm, ⟨41, _⟩ => ⟨S100000x64, .f32⟩
  | .hbm, ⟨42, _⟩ => ⟨S1200000x1, .i32⟩
  | .hbm, ⟨43, _⟩ => ⟨S100000x64, .f32⟩
  | .hbm, ⟨44, _⟩ => ⟨S100000x64, .f32⟩
  | .hbm, ⟨45, _⟩ => ⟨S100000x64, .f32⟩
  | .hbm, ⟨46, _⟩ => ⟨S100000x64, .f32⟩
  | .hbm, ⟨47, _⟩ => ⟨S100000x64, .f32⟩
  | .hbm, ⟨48, _⟩ => ⟨S100000x64, .f32⟩
  | .hbm, ⟨49, _⟩ => ⟨S1x64, .f32⟩
  | .hbm, ⟨50, _⟩ => ⟨S100000x64, .f32⟩
  | .hbm, ⟨51, _⟩ => ⟨S100000x64, .f32⟩
  | .hbm, ⟨52, _⟩ => ⟨S_, .f32⟩
  | .hbm, ⟨53, _⟩ => ⟨S100000x64, .f32⟩
  | .hbm, ⟨54, _⟩ => ⟨S100000x64, .f32⟩
  | .hbm, ⟨55, _⟩ => ⟨S_, .i32⟩
  | .hbm, ⟨56, _⟩ => ⟨S1200000, .i32⟩
  | .hbm, ⟨57, _⟩ => ⟨S1200000, .i1⟩
  | .hbm, ⟨58, _⟩ => ⟨S_, .i32⟩
  | .hbm, ⟨59, _⟩ => ⟨S1200000, .i32⟩
  | .hbm, ⟨60, _⟩ => ⟨S1200000, .i32⟩
  | .hbm, ⟨61, _⟩ => ⟨S1200000, .i32⟩
  | .hbm, ⟨62, _⟩ => ⟨S1200000x1, .i32⟩
  | .hbm, ⟨63, _⟩ => ⟨S1200000x64, .f32⟩
  | .hbm, ⟨64, _⟩ => ⟨S_, .f32⟩
  | .hbm, ⟨65, _⟩ => ⟨S100000x64, .f32⟩
  | .hbm, ⟨66, _⟩ => ⟨S1200000x1, .i32⟩
  | .hbm, ⟨67, _⟩ => ⟨S100000x64, .f32⟩
  | .hbm, ⟨68, _⟩ => ⟨S100000x64, .f32⟩
  | .hbm, ⟨69, _⟩ => ⟨S100000x64, .f32⟩
  | .hbm, ⟨70, _⟩ => ⟨S100000x64, .f32⟩
  | .hbm, ⟨71, _⟩ => ⟨S100000x64, .f32⟩
  | .hbm, ⟨72, _⟩ => ⟨S100000x64, .f32⟩
  | .hbm, ⟨73, _⟩ => ⟨S1x64, .f32⟩
  | .hbm, ⟨74, _⟩ => ⟨S100000x64, .f32⟩
  | .hbm, ⟨75, _⟩ => ⟨S100000x64, .f32⟩
  | .hbm, ⟨76, _⟩ => ⟨S_, .f32⟩
  | .hbm, ⟨77, _⟩ => ⟨S100000x64, .f32⟩
  | .hbm, ⟨78, _⟩ => ⟨S100000x64, .f32⟩
  | .hbm, ⟨79, _⟩ => ⟨S100000x16, .f32⟩
  | .hbm, ⟨80, _⟩ => ⟨S1x16, .f32⟩
  | .hbm, ⟨81, _⟩ => ⟨S100000x16, .f32⟩
  | .hbm, ⟨82, _⟩ => ⟨S100000x16, .f32⟩
  | .hbm, ⟨83, _⟩ => ⟨S_, .f32⟩
  | .hbm, ⟨84, _⟩ => ⟨S100000, .f32⟩
  | .hbm, ⟨85, _⟩ => ⟨S_, .f32⟩
  | .hbm, ⟨86, _⟩ => ⟨S100000, .f32⟩
  | .hbm, ⟨87, _⟩ => ⟨S100000, .f32⟩
  | .hbm, ⟨88, _⟩ => ⟨S100000x1, .f32⟩
  | .hbm, ⟨89, _⟩ => ⟨S100000x16, .f32⟩
  | .hbm, ⟨90, _⟩ => ⟨S100000x16, .f32⟩
  | .hbm, ⟨91, _⟩ => ⟨S100000x16, .f32⟩
  | .hbm, ⟨92, _⟩ => ⟨S_, .f32⟩
  | .hbm, ⟨93, _⟩ => ⟨S100000, .f32⟩
  | .hbm, ⟨94, _⟩ => ⟨S100000x1, .f32⟩
  | .hbm, ⟨95, _⟩ => ⟨S100000x16, .f32⟩
  | .hbm, ⟨96, _⟩ => ⟨S100000x16, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_cst_2 : Ref sig .tc := ⟨.hbm, 20, rfl⟩
abbrev main_v6 : Ref sig .tc := ⟨.hbm, 21, rfl⟩
abbrev main_v7 : Ref sig .tc := ⟨.hbm, 22, rfl⟩
abbrev main_cst_3 : Ref sig .tc := ⟨.hbm, 23, rfl⟩
abbrev main_v8 : Ref sig .tc := ⟨.hbm, 24, rfl⟩
abbrev main_v9 : Ref sig .tc := ⟨.hbm, 25, rfl⟩
abbrev main_cst_4 : Ref sig .tc := ⟨.hbm, 26, rfl⟩
abbrev main_call0_v0 : Ref sig .tc := ⟨.hbm, 27, rfl⟩
abbrev main_call0_v1 : Ref sig .tc := ⟨.hbm, 28, rfl⟩
abbrev main_v10 : Ref sig .tc := ⟨.hbm, 29, rfl⟩
abbrev main_v11 : Ref sig .tc := ⟨.hbm, 30, rfl⟩
abbrev main_c : Ref sig .tc := ⟨.hbm, 31, rfl⟩
abbrev main_v12 : Ref sig .tc := ⟨.hbm, 32, rfl⟩
abbrev main_v13 : Ref sig .tc := ⟨.hbm, 33, rfl⟩
abbrev main_c_5 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_6 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_call1_cst : Ref sig .tc := ⟨.hbm, 52, rfl⟩
abbrev main_call1_v0 : Ref sig .tc := ⟨.hbm, 53, rfl⟩
abbrev main_v30 : Ref sig .tc := ⟨.hbm, 54, rfl⟩
abbrev main_c_7 : Ref sig .tc := ⟨.hbm, 55, rfl⟩
abbrev main_v31 : Ref sig .tc := ⟨.hbm, 56, rfl⟩
abbrev main_v32 : Ref sig .tc := ⟨.hbm, 57, rfl⟩
abbrev main_c_8 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_9 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_call2_cst : Ref sig .tc := ⟨.hbm, 76, rfl⟩
abbrev main_call2_v0 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_10 : Ref sig .tc := ⟨.hbm, 83, rfl⟩
abbrev main_v54 : Ref sig .tc := ⟨.hbm, 84, rfl⟩
abbrev main_cst_11 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_12 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩

abbrev nD : Nat := 1
abbrev τ : Topo := Topo.v7x

variable {F : FTy → Type} [FloatOps F]

class Facts₀ : Prop where
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  h_S_ : 0 < S_.numel
  bcast_S100000x1_S100000x16_0_1 : S100000x1.BroadcastsInDim S100000x16 (![0, 1] : Fin 2 → Fin S100000x16.rank)
  scatter_S100000_S1200000x1_S1200000_n_0_0_1_wf : ScatterDims.WF S100000 S1200000x1 S1200000 [] [0] [0] 1
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S100000x64_S64x64_S100000x64_1_0_0_1_n_n_wf : DotDims.WF S100000x64 S64x64 S100000x64 [1] [0] [0] [1] [] []
  dot_S100000x64_S64x16_S100000x16_1_0_0_1_n_n_wf : DotDims.WF S100000x64 S64x16 S100000x16 [1] [0] [0] [1] [] []

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf

class Facts : Prop extends Facts₀ where

variable [Facts]
-- ==== Proof.Spec.lean ====
/-
  The mathematics both programs compute, over the extended reals.

  One layer, on ONE node: from the node's own feature row `xr`, the sum `aggr` of its in-neighbours' rows and the
  reciprocal `invr` of its in-degree (zero for a node with no in-neighbour),
      layerRow xr aggr invr Ws Wn b c = max ( Σₖ xr(k)·Ws(k,c) + Σₖ (aggr(k)·invr)·Wn(k,c) + b(c) , 0 ),
  so `aggr(k)·invr` is the neighbours' mean. The classifier on one node: the sixteen logits
  `l(q) = Σₖ h(k)·Wfc(k,q) + bfc(q)` of the node's second-layer features `h`, then their softmax in the shifted form
  `exp(l(p) − M) / Σ_q exp(l(q) − M)` with `M` the largest logit.
  An array of `n` nodes is treated row by row: entry `(r, c)` of the result depends on row `r` of the inputs only — which
  is why computing the rows in blocks of 5000 and computing them all at once give the same array.
-/
import Idealize.ShloMosaic.PureOps.Ideal
import Idealize.ShloMosaic.Lib.ValueIdx

noncomputable section

open Idealize.ShloMosaic Idealize.ShloMosaic.ValueIdx

namespace Cert.Sage

/-- Arrays as functions of their indices. -/
abbrev Mat (a b : ℕ) : Type := (⟨2, ![a, b]⟩ : Shape).Idx → EReal

/-- One mean-aggregation layer on one node, at output feature `c`. -/
def layerRow (xr aggr : Fin 64 → EReal) (invr : EReal) (Ws Wn : Fin 64 → Fin 64 → EReal) (b : Fin 64 → EReal) (c : Fin 64) : EReal :=
  max (((∑ k : Fin 64, xr k * Ws k c) + (∑ k : Fin 64, (aggr k * invr) * Wn k c)) + b c) (Ideal.ofBits .f32 0x00000000#32)

/-- The largest of sixteen logits, from `−∞`. -/
def rowMax (l : Fin 16 → EReal) : EReal :=
  (Finset.univ : Finset (Fin 16)).fold max (Ideal.ofBits .f32 0xFF800000#32) l

/-- The softmax of sixteen logits at class `p`, in the shifted form. -/
def softmaxAt (l : Fin 16 → EReal) (p : Fin 16) : EReal :=
  Ideal.div (Ideal.exp (l p - rowMax l)) (∑ q : Fin 16, Ideal.exp (l q - rowMax l))

/-- The second layer, the classifier and the softmax on one node, at class `p`. -/
def headRow (xr aggr : Fin 64 → EReal) (invr : EReal) (Ws Wn : Fin 64 → Fin 64 → EReal) (b : Fin 64 → EReal)
    (Wfc : Fin 64 → Fin 16 → EReal) (bfc : Fin 16 → EReal) (p : Fin 16) : EReal :=
  softmaxAt (fun q => (∑ k : Fin 64, layerRow xr aggr invr Ws Wn b k * Wfc k q) + bfc q) p

variable {n : ℕ}

/-- The layer over an array of `n` nodes. -/
def layer (X A : Mat n 64) (I : Mat n 1) (Ws Wn : Mat 64 64) (b : Fin 64 → EReal) : Mat n 64 :=
  fun i => layerRow (fun k => X (ix2 (i 0) k)) (fun k => A (ix2 (i 0) k)) (I (ix2 (i 0) (0 : Fin 1)))
    (fun k c => Ws (ix2 k c)) (fun k c => Wn (ix2 k c)) b (i 1)

/-- The second layer with the classifier and the softmax over an array of `n` nodes. -/
def head (X A : Mat n 64) (I : Mat n 1) (Ws Wn : Mat 64 64) (b : Fin 64 → EReal) (Wfc : Mat 64 16) (bfc : Fin 16 → EReal) :
    Mat n 16 :=
  fun i => headRow (fun k => X (ix2 (i 0) k)) (fun k => A (ix2 (i 0) k)) (I (ix2 (i 0) (0 : Fin 1)))
    (fun k c => Ws (ix2 k c)) (fun k c => Wn (ix2 k c)) b (fun k q => Wfc (ix2 k q)) bfc (i 1)

/-- Rows taken through any re-indexing: if block row `y` is array row `e y` for each of the three row-indexed inputs,
    the layer of the blocks at `(y, c)` is the layer of the arrays at `(e y, c)`. -/
theorem layer_rows {n' : ℕ} (X A : Mat n 64) (I : Mat n 1) (X' A' : Mat n' 64) (I' : Mat n' 1) (Ws Wn : Mat 64 64)
    (b : Fin 64 → EReal) (r : Fin n) (r' : Fin n') (c : Fin 64)
    (hX : ∀ k, X' (ix2 r' k) = X (ix2 r k)) (hA : ∀ k, A' (ix2 r' k) = A (ix2 r k))
    (hI : I' (ix2 r' (0 : Fin 1)) = I (ix2 r (0 : Fin 1))) :
    layer X' A' I' Ws Wn b (ix2 r' c) = layer X A I Ws Wn b (ix2 r c) := by
  show layerRow (fun k => X' (ix2 r' k)) (fun k => A' (ix2 r' k)) (I' (ix2 r' (0 : Fin 1))) _ _ b c
    = layerRow (fun k => X (ix2 r k)) (fun k => A (ix2 r k)) (I (ix2 r (0 : Fin 1))) _ _ b c
  rw [funext hX, funext hA, hI]

theorem head_rows {n' : ℕ} (X A : Mat n 64) (I : Mat n 1) (X' A' : Mat n' 64) (I' : Mat n' 1) (Ws Wn : Mat 64 64)
    (b : Fin 64 → EReal) (Wfc : Mat 64 16) (bfc : Fin 16 → EReal) (r : Fin n) (r' : Fin n') (p : Fin 16)
    (hX : ∀ k, X' (ix2 r' k) = X (ix2 r k)) (hA : ∀ k, A' (ix2 r' k) = A (ix2 r k))
    (hI : I' (ix2 r' (0 : Fin 1)) = I (ix2 r (0 : Fin 1))) :
    head X' A' I' Ws Wn b Wfc bfc (ix2 r' p) = head X A I Ws Wn b Wfc bfc (ix2 r p) := by
  show headRow (fun k => X' (ix2 r' k)) (fun k => A' (ix2 r' k)) (I' (ix2 r' (0 : Fin 1))) _ _ b _ bfc p
    = headRow (fun k => X (ix2 r k)) (fun k => A (ix2 r k)) (I (ix2 r (0 : Fin 1))) _ _ b _ bfc p
  rw [funext hX, funext hA, hI]

end Cert.Sage

end
-- ==== Proof.LibRowReduce.lean ====
/-
  Reductions of a matrix `[a, b]` over its column axis, read at a row `p`, at the ideal float values: a
  `vector.multi_reduction <add>` is the sum over the row's entries, a `vector.multi_reduction <maximumf>` and the host's
  `stablehlo.reduce` with a maximum body are the fold of `max` over the row's entries from the initial value; and `−∞`
  (the f32 pattern `0xFF800000`) is neutral for `max` on the extended reals. General in both extents.
-/
import Idealize.ShloMosaic.PureOps.Ideal.Laws
import Idealize.ShloMosaic.Lib.ValueIdx

noncomputable section

open Idealize.ShloMosaic Idealize.ShloMosaic.ValueIdx

namespace RowReduce

variable {a b : ℕ}

/-- The row index `p` with column `k` put back on the reduced axis is `(p, k)`. -/
theorem lift_row (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A lane sum over the columns, at row `p`: the sum of the row's entries. -/
theorem multiReduction_add_row {φ : FTy} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (p : Fin a) :
    multiReduction .add [1] ⟨1, ![a]⟩ src acc h hφ hacc (ix1 p) = ∑ k : Fin b, src (ix2 p k) := by
  rw [Ideal.multiReduction_add_single]
  exact Finset.sum_congr rfl fun k _ => congrArg src (lift_row h p k)

/-- A lane maximum over the columns, at row `p`: the fold of `max` over the row's entries from the accumulator's value. -/
theorem multiReduction_max_row {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) := by
  rw [Ideal.multiReduction_maximumf_single]
  have hf : (src ∘ h.lift (ix1 p)) = fun k : Fin b => src (ix2 p k) := funext fun k => congrArg src (lift_row h p k)
  exact congrArg (fun f => Finset.fold max (Ideal.ofBits φ acc) f (Finset.univ : Finset (Fin b))) hf

/-- The host's reduce with a maximum body over the columns, at row `p`: the same fold from the initial value. -/
theorem hostReduce_max_row {φ : FTy} {u : Shape} (x : FVec Ideal ⟨2, ![a, b]⟩ φ) (init : u.Idx → Ideal φ)
    (h' : (⟨2, ![a, b]⟩ : Shape).ReducesTo [1] (⟨1, ![a]⟩ : Shape)) (h : (⟨2, ![a, b]⟩ : Shape).Reduces [1] (⟨1, ![a]⟩ : Shape))
    (hu : 0 < u.numel) (p : Fin a) :
    Host.reduce FloatOps.maximumf x init h' hu (ix1 p)
      = (Finset.univ : Finset (Fin b)).fold max (init (Shape.Idx.first hu)) (fun k => x (ix2 p k)) := by
  rw [Host.reduce_eq_fold_single FloatOps.maximumf x init h' h hu]
  have hf : (x ∘ h.lift (ix1 p)) = fun k : Fin b => x (ix2 p k) := funext fun k => congrArg x (lift_row h p k)
  exact congrArg (fun f => Finset.fold max (init (Shape.Idx.first hu)) f (Finset.univ : Finset (Fin b))) hf

/-- `−∞` is neutral for the maximum of extended reals. -/
theorem max_negInf (y : EReal) : max (Ideal.ofBits .f32 0xFF800000#32) y = y := by
  simp [Ideal.ofBits, Ideal.ieee]

end RowReduce

end
-- ==== Proof.LibPlainDot.lean ====
/-
  A plain matrix product read at an entry. For the dimension numbers "rows × contraction times contraction × columns"
  (`DotDims.plain M K N`) the sum over the contraction index that an ideal `tpu.matmul` into a zero accumulator, or an
  ideal host `dot_general`, is at an output entry `(p, c)` is the textbook sum over `k` of `l (p, k) · r (k, c)`.
  General in the three extents and in the operands' float formats.
-/
import Idealize.ShloMosaic.PureOps.Ideal.Laws
import Idealize.ShloMosaic.Lib.ValueIdx

noncomputable section

open Idealize.ShloMosaic Idealize.ShloMosaic.ValueIdx

namespace PlainDot

variable {M K N : ℕ}

/-- The left operand's index at output entry `j` and contraction position `q`: row of `j`, column `q`. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem lhs_col (j : (⟨2, ![M, N]⟩ : Shape).Idx) (q : (DotDims.plain M K N).contr.Idx) :
    ((DotDims.plain M K N).lhsIdx j q 1).val = (q ⟨0, (by show 0 < 1; exact Nat.one_pos)⟩).val :=
  (DotDims.plain M K N).lhsIdx_val_of_single rfl j q

/-- The right operand's index: row `q`, column of `j`. -/
theorem rhs_row (j : (⟨2, ![M, N]⟩ : Shape).Idx) (q : (DotDims.plain M K N).contr.Idx) :
    ((DotDims.plain M K N).rhsIdx j q 0).val = (q ⟨0, (by show 0 < 1; exact Nat.one_pos)⟩).val :=
  (DotDims.plain M K N).rhsIdx_val_of_single rfl j q

theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction sum of a plain product at `(p, c)` is the sum over `k : Fin K` of `l (p, k) · r (k, c)`. -/
theorem sum_contr {α : Type} [AddCommMonoid α] (f : (⟨2, ![M, K]⟩ : Shape).Idx → (⟨2, ![K, N]⟩ : Shape).Idx → α)
    (p : Fin M) (c : Fin N) :
    ∑ q : (DotDims.plain M K N).contr.Idx,
        f ((DotDims.plain M K N).lhsIdx (ix2 p c) q) ((DotDims.plain M K N).rhsIdx (ix2 p c) q)
      = ∑ k : Fin K, f (ix2 p k) (ix2 k c) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p c) ((contrEquiv1 (DotDims.plain M K N) K rfl rfl).symm k) = ix2 k c :=
    funext fun a => Fin.ext (by
      match a with
      | ⟨0, _⟩ => exact (rhs_row _ _).trans hk
      | ⟨1, _⟩ => exact rhs_col _ _)
  rw [el, er]

/-- An ideal `tpu.matmul` with plain dimension numbers into the zero accumulator, read at `(p, c)`. -/
theorem matmul_zero_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂) (p : Fin M) (c : Fin N) :
    FloatOps.matmul D prec l r (constant ⟨2, ![M, N]⟩ .f32 0x00000000#32) (ix2 p c) = ∑ k : Fin K, l (ix2 p k) * r (ix2 k c) := by
  subst hD
  rw [Ideal.matmul_constant_zero_apply]
  exact sum_contr (fun a b => l a * r b) p c

/-- An ideal host `dot_general` with plain dimension numbers, read at `(p, c)`. -/
theorem dotGeneral_apply {φ₁ φ₂ : FTy} (D : DotDims ⟨2, ![M, K]⟩ ⟨2, ![K, N]⟩ ⟨2, ![M, N]⟩) (hD : D = DotDims.plain M K N)
    (prec : Option ContractPrecision) (sched : HostSchedule) (l : FVec Ideal ⟨2, ![M, K]⟩ φ₁) (r : FVec Ideal ⟨2, ![K, N]⟩ φ₂)
    (p : Fin M) (c : Fin N) :
    FloatOps.dotGeneral D prec sched l r (ix2 p c) = ∑ k : Fin K, l (ix2 p k) * r (ix2 k c) := by
  subst hD
  rw [Ideal.dotGeneral_apply]
  exact sum_contr (fun a b => l a * r b) p c

end PlainDot

end
-- ==== Proof.RefValue.lean ====
import proofs.«126656_j57638461112953_2_alg».proof.Proof.RefRead
import proofs.«126656_j57638461112953_2_alg».proof.Proof.Spec
import proofs.«126656_j57638461112953_2_alg».proof.Proof.LibRowReduce
import proofs.«126656_j57638461112953_2_alg».proof.Proof.LibPlainDot
import Idealize.ShloMosaic.Lib.ValueIdx

set_option maxRecDepth 16384

noncomputable section

namespace Cert.ReferenceIdeal.Hand

open Cert.ReferenceIdeal Cert.ReferenceIdeal.ReadP Cert.Sage
open Idealize.ShloMosaic Idealize.ShloMosaic.ValueIdx

/-! # The reference, stage by stage, is the layer and the head

The reference computes on whole arrays: two matrix products, a sum and a maximum with zero for each layer; a matrix
product, a row maximum, exponentials, a row sum and a quotient for the classifier's softmax. Read at an entry `(r, c)`
each stage is the evident expression in row `r` of its operands, so the first layer's stage is `layer` of the features, of
the neighbour sums and of the inverse degrees, and the last stage is `head` of the first layer's output and of ITS
neighbour sums. The reference takes the row maximum once more against `−∞`, which changes nothing. -/

/-! ## The composed layout index maps at `(r, c)` -/

theorem idx22 (r : Fin 100000) (k : Fin 64) : idx_main_v22 (ix2 r k) = ix2 r (0 : Fin 1) := funext fun a => Fin.ext (by match a with | ⟨0, _⟩ => rfl | ⟨1, _⟩ => rfl)
theorem idx2728 (r : Fin 100000) (c : Fin 64) : idx_main_v27 (idx_main_v28 (ix2 r c)) = ix1 c := funext fun a => Fin.ext (by match a with | ⟨0, _⟩ => rfl)
theorem idx41 (r : Fin 100000) (k : Fin 64) : idx_main_v41 (ix2 r k) = ix2 r (0 : Fin 1) := funext fun a => Fin.ext (by match a with | ⟨0, _⟩ => rfl | ⟨1, _⟩ => rfl)
theorem idx4647 (r : Fin 100000) (c : Fin 64) : idx_main_v46 (idx_main_v47 (ix2 r c)) = ix1 c := funext fun a => Fin.ext (by match a with | ⟨0, _⟩ => rfl)
theorem idx5152 (r : Fin 100000) (q : Fin 16) : idx_main_v51 (idx_main_v52 (ix2 r q)) = ix1 q := funext fun a => Fin.ext (by match a with | ⟨0, _⟩ => rfl)
theorem idx5758 (r : Fin 100000) (q : Fin 16) : idx_main_v57 (idx_main_v58 (ix2 r q)) = ix1 r := funext fun a => Fin.ext (by match a with | ⟨0, _⟩ => rfl)
theorem idx6263 (r : Fin 100000) (q : Fin 16) : idx_main_v62 (idx_main_v63 (ix2 r q)) = ix1 r := funext fun a => Fin.ext (by match a with | ⟨0, _⟩ => rfl)
theorem idx61 (r : Fin 100000) (q : Fin 16) : idx_main_v61 (ix1 r) q = ix2 r q := funext fun a => Fin.ext (by match a with | ⟨0, _⟩ => rfl | ⟨1, _⟩ => rfl)

/-! ## The first layer -/

/-- The neighbours' mean at `(r, k)`: the neighbour sum times the node's inverse degree. -/
theorem mean1_at (x0 : (⟨S100000x64, .f32⟩ : BufTy).Contents (Elt Ideal)) (x1 x2 : (⟨S1200000, .i32⟩ : BufTy).Contents (Elt Ideal)) (r : Fin 100000) (k : Fin 64) :
    val_main_v23 (F := Ideal) x0 x1 x2 (ix2 r k)
      = val_main_v21 (F := Ideal) x0 x1 x2 (ix2 r k) * val_main_v11 (F := Ideal) x2 (ix2 r (0 : Fin 1)) := by
  rw [val_main_v23_apply, val_main_v22_apply, idx22]
  rfl

/-- The reference's first hidden array is the layer of the features, their neighbour sums and the inverse degrees. -/
theorem ref_layer1 (x0 : (⟨S100000x64, .f32⟩ : BufTy).Contents (Elt Ideal)) (x1 x2 : (⟨S1200000, .i32⟩ : BufTy).Contents (Elt Ideal)) (x3 x4 : (⟨S64x64, .f32⟩ : BufTy).Contents (Elt Ideal)) (x5 : (⟨S64, .f32⟩ : BufTy).Contents (Elt Ideal)) :
    val_main_v30 (F := Ideal) x0 x1 x2 x3 x4 x5
      = layer (n := 100000) x0 (val_main_v21 (F := Ideal) x0 x1 x2) (val_main_v11 (F := Ideal) x2) x3 x4 (fun k => x5 (ix1 k)) := by
  funext i
  obtain ⟨r, c, rfl⟩ : ∃ (r : Fin 100000) (c : Fin 64), i = ix2 r c := ⟨i 0, i 1, eq_ix2 i⟩
  rw [val_main_v30_apply, val_main_v29_apply, val_main_v26_apply, val_main_v28_apply, val_main_v27_apply, idx2728,
    val_main_call1_v0_apply, val_main_call1_cst_apply]
  unfold val_main_v24 val_main_v25
  simp only [Host.dotGeneral]
  rw [PlainDot.dotGeneral_apply dot_S100000x64_S64x64_S100000x64_1_0_0_1_n_n rfl, PlainDot.dotGeneral_apply dot_S100000x64_S64x64_S100000x64_1_0_0_1_n_n rfl]
  simp only [mean1_at]
  generalize val_main_v21 (F := Ideal) x0 x1 x2 = A
  generalize val_main_v11 (F := Ideal) x2 = I
  rfl

/-- The second aggregation is the first one's function, of the first hidden array. -/
theorem ref_agg2 (x0 : (⟨S100000x64, .f32⟩ : BufTy).Contents (Elt Ideal)) (x1 x2 : (⟨S1200000, .i32⟩ : BufTy).Contents (Elt Ideal)) (x3 x4 : (⟨S64x64, .f32⟩ : BufTy).Contents (Elt Ideal)) (x5 : (⟨S64, .f32⟩ : BufTy).Contents (Elt Ideal)) :
    val_main_v40 (F := Ideal) x0 x1 x2 x3 x4 x5 = val_main_v21 (F := Ideal) (val_main_v30 (F := Ideal) x0 x1 x2 x3 x4 x5) x1 x2 := rfl

/-! ## The second layer -/

theorem mean2_at (x0 : (⟨S100000x64, .f32⟩ : BufTy).Contents (Elt Ideal)) (x1 x2 : (⟨S1200000, .i32⟩ : BufTy).Contents (Elt Ideal)) (x3 x4 : (⟨S64x64, .f32⟩ : BufTy).Contents (Elt Ideal)) (x5 : (⟨S64, .f32⟩ : BufTy).Contents (Elt Ideal)) (r : Fin 100000) (k : Fin 64) :
    val_main_v42 (F := Ideal) x0 x1 x2 x3 x4 x5 (ix2 r k)
      = val_main_v40 (F := Ideal) x0 x1 x2 x3 x4 x5 (ix2 r k) * val_main_v11 (F := Ideal) x2 (ix2 r (0 : Fin 1)) := by
  rw [val_main_v42_apply, val_main_v41_apply, idx41]
  rfl

theorem ref_layer2 (x0 : (⟨S100000x64, .f32⟩ : BufTy).Contents (Elt Ideal)) (x1 x2 : (⟨S1200000, .i32⟩ : BufTy).Contents (Elt Ideal)) (x3 x4 : (⟨S64x64, .f32⟩ : BufTy).Contents (Elt Ideal)) (x5 : (⟨S64, .f32⟩ : BufTy).Contents (Elt Ideal)) (x6 x7 : (⟨S64x64, .f32⟩ : BufTy).Contents (Elt Ideal)) (x8 : (⟨S64, .f32⟩ : BufTy).Contents (Elt Ideal)) :
    val_main_v49 (F := Ideal) x0 x1 x2 x3 x4 x5 x6 x7 x8
      = layer (n := 100000) (val_main_v30 (F := Ideal) x0 x1 x2 x3 x4 x5) (val_main_v40 (F := Ideal) x0 x1 x2 x3 x4 x5) (val_main_v11 (F := Ideal) x2) x6 x7
          (fun k => x8 (ix1 k)) := by
  funext i
  obtain ⟨r, c, rfl⟩ : ∃ (r : Fin 100000) (c : Fin 64), i = ix2 r c := ⟨i 0, i 1, eq_ix2 i⟩
  rw [val_main_v49_apply, val_main_v48_apply, val_main_v45_apply, val_main_v47_apply, val_main_v46_apply, idx4647,
    val_main_call2_v0_apply, val_main_call2_cst_apply]
  unfold val_main_v43 val_main_v44
  simp only [Host.dotGeneral]
  rw [PlainDot.dotGeneral_apply dot_S100000x64_S64x64_S100000x64_1_0_0_1_n_n rfl, PlainDot.dotGeneral_apply dot_S100000x64_S64x64_S100000x64_1_0_0_1_n_n rfl]
  simp only [mean2_at]
  generalize val_main_v30 (F := Ideal) x0 x1 x2 x3 x4 x5 = H
  generalize val_main_v40 (F := Ideal) x0 x1 x2 x3 x4 x5 = A
  generalize val_main_v11 (F := Ideal) x2 = I
  rfl

/-! ## The classifier and the softmax -/

/-- The logits of node `r`. -/
theorem ref_logits (x0 : (⟨S100000x64, .f32⟩ : BufTy).Contents (Elt Ideal)) (x1 x2 : (⟨S1200000, .i32⟩ : BufTy).Contents (Elt Ideal)) (x3 x4 : (⟨S64x64, .f32⟩ : BufTy).Contents (Elt Ideal)) (x5 : (⟨S64, .f32⟩ : BufTy).Contents (Elt Ideal)) (x6 x7 : (⟨S64x64, .f32⟩ : BufTy).Contents (Elt Ideal)) (x8 : (⟨S64, .f32⟩ : BufTy).Contents (Elt Ideal)) (x9 : (⟨S64x16, .f32⟩ : BufTy).Contents (Elt Ideal)) (x10 : (⟨S16, .f32⟩ : BufTy).Contents (Elt Ideal)) (r : Fin 100000) (q : Fin 16) :
    val_main_v53 (F := Ideal) x0 x1 x2 x3 x4 x5 x6 x7 x8 x9 x10 (ix2 r q)
      = (∑ k : Fin 64, val_main_v49 (F := Ideal) x0 x1 x2 x3 x4 x5 x6 x7 x8 (ix2 r k) * x9 (ix2 k q)) + x10 (ix1 q) := by
  rw [val_main_v53_apply, val_main_v52_apply, val_main_v51_apply, idx5152]
  unfold val_main_v50
  simp only [Host.dotGeneral]
  rw [PlainDot.dotGeneral_apply dot_S100000x64_S64x16_S100000x16_1_0_0_1_n_n rfl]
  generalize val_main_v49 (F := Ideal) x0 x1 x2 x3 x4 x5 x6 x7 x8 = H
  rfl

/-- The row's largest logit: the reference's reduce from `−∞`, then once more against `−∞`. -/
theorem ref_rowmax (x0 : (⟨S100000x64, .f32⟩ : BufTy).Contents (Elt Ideal)) (x1 x2 : (⟨S1200000, .i32⟩ : BufTy).Contents (Elt Ideal)) (x3 x4 : (⟨S64x64, .f32⟩ : BufTy).Contents (Elt Ideal)) (x5 : (⟨S64, .f32⟩ : BufTy).Contents (Elt Ideal)) (x6 x7 : (⟨S64x64, .f32⟩ : BufTy).Contents (Elt Ideal)) (x8 : (⟨S64, .f32⟩ : BufTy).Contents (Elt Ideal)) (x9 : (⟨S64x16, .f32⟩ : BufTy).Contents (Elt Ideal)) (x10 : (⟨S16, .f32⟩ : BufTy).Contents (Elt Ideal)) (r : Fin 100000) :
    val_main_v56 (F := Ideal) x0 x1 x2 x3 x4 x5 x6 x7 x8 x9 x10 (ix1 r) = rowMax (fun q => val_main_v53 (F := Ideal) x0 x1 x2 x3 x4 x5 x6 x7 x8 x9 x10 (ix2 r q)) := by
  rw [val_main_v56_apply, val_main_v55_apply, val_main_cst_11_apply]
  unfold val_main_v54
  generalize val_main_v53 (F := Ideal) x0 x1 x2 x3 x4 x5 x6 x7 x8 x9 x10 = L
  show max (Ideal.ofBits .f32 0xFF800000#32) (Host.reduce FloatOps.maximumf L (val_main_cst_10 (F := Ideal)) _ _ (ix1 r)) = _
  rw [RowReduce.max_negInf]
  exact RowReduce.hostReduce_max_row L _ _ (by decide) _ r

/-- The exponentials. -/
theorem ref_exp (x0 : (⟨S100000x64, .f32⟩ : BufTy).Contents (Elt Ideal)) (x1 x2 : (⟨S1200000, .i32⟩ : BufTy).Contents (Elt Ideal)) (x3 x4 : (⟨S64x64, .f32⟩ : BufTy).Contents (Elt Ideal)) (x5 : (⟨S64, .f32⟩ : BufTy).Contents (Elt Ideal)) (x6 x7 : (⟨S64x64, .f32⟩ : BufTy).Contents (Elt Ideal)) (x8 : (⟨S64, .f32⟩ : BufTy).Contents (Elt Ideal)) (x9 : (⟨S64x16, .f32⟩ : BufTy).Contents (Elt Ideal)) (x10 : (⟨S16, .f32⟩ : BufTy).Contents (Elt Ideal)) (r : Fin 100000) (q : Fin 16) :
    val_main_v60 (F := Ideal) x0 x1 x2 x3 x4 x5 x6 x7 x8 x9 x10 (ix2 r q)
      = Ideal.exp (val_main_v53 (F := Ideal) x0 x1 x2 x3 x4 x5 x6 x7 x8 x9 x10 (ix2 r q) - rowMax (fun q' => val_main_v53 (F := Ideal) x0 x1 x2 x3 x4 x5 x6 x7 x8 x9 x10 (ix2 r q'))) := by
  rw [val_main_v60_apply, val_main_v59_apply, val_main_v58_apply, val_main_v57_apply, idx5758, ref_rowmax]
  generalize val_main_v53 (F := Ideal) x0 x1 x2 x3 x4 x5 x6 x7 x8 x9 x10 = L
  rfl

/-- The row sum of the exponentials (from zero). -/
theorem ref_rowsum (x0 : (⟨S100000x64, .f32⟩ : BufTy).Contents (Elt Ideal)) (x1 x2 : (⟨S1200000, .i32⟩ : BufTy).Contents (Elt Ideal)) (x3 x4 : (⟨S64x64, .f32⟩ : BufTy).Contents (Elt Ideal)) (x5 : (⟨S64, .f32⟩ : BufTy).Contents (Elt Ideal)) (x6 x7 : (⟨S64x64, .f32⟩ : BufTy).Contents (Elt Ideal)) (x8 : (⟨S64, .f32⟩ : BufTy).Contents (Elt Ideal)) (x9 : (⟨S64x16, .f32⟩ : BufTy).Contents (Elt Ideal)) (x10 : (⟨S16, .f32⟩ : BufTy).Contents (Elt Ideal)) (r : Fin 100000) :
    val_main_v61 (F := Ideal) x0 x1 x2 x3 x4 x5 x6 x7 x8 x9 x10 (ix1 r) = ∑ q : Fin 16, val_main_v60 (F := Ideal) x0 x1 x2 x3 x4 x5 x6 x7 x8 x9 x10 (ix2 r q) := by
  rw [val_main_v61_apply, val_main_cst_12_apply]
  generalize val_main_v60 (F := Ideal) x0 x1 x2 x3 x4 x5 x6 x7 x8 x9 x10 = E
  show Ideal.ofBits .f32 0x00000000#32 + _ = _
  rw [Ideal.ofBits_zero_f32, zero_add]
  exact Finset.sum_congr rfl fun q _ => congrArg E (idx61 r q)

/-- The reference's result is the head of the first hidden array and of its neighbour sums. -/
theorem ref_head (x0 : (⟨S100000x64, .f32⟩ : BufTy).Contents (Elt Ideal)) (x1 x2 : (⟨S1200000, .i32⟩ : BufTy).Contents (Elt Ideal)) (x3 x4 : (⟨S64x64, .f32⟩ : BufTy).Contents (Elt Ideal)) (x5 : (⟨S64, .f32⟩ : BufTy).Contents (Elt Ideal)) (x6 x7 : (⟨S64x64, .f32⟩ : BufTy).Contents (Elt Ideal)) (x8 : (⟨S64, .f32⟩ : BufTy).Contents (Elt Ideal)) (x9 : (⟨S64x16, .f32⟩ : BufTy).Contents (Elt Ideal)) (x10 : (⟨S16, .f32⟩ : BufTy).Contents (Elt Ideal)) :
    val_main_v64 (F := Ideal) x0 x1 x2 x3 x4 x5 x6 x7 x8 x9 x10
      = head (n := 100000) (val_main_v30 (F := Ideal) x0 x1 x2 x3 x4 x5) (val_main_v40 (F := Ideal) x0 x1 x2 x3 x4 x5) (val_main_v11 (F := Ideal) x2) x6 x7
          (fun k => x8 (ix1 k)) x9 (fun q => x10 (ix1 q)) := by
  funext i
  obtain ⟨r, p, rfl⟩ : ∃ (r : Fin 100000) (p : Fin 16), i = ix2 r p := ⟨i 0, i 1, eq_ix2 i⟩
  rw [val_main_v64_apply, val_main_v63_apply, val_main_v62_apply, idx6263, ref_rowsum]
  simp only [ref_exp, ref_logits, ref_layer2]
  generalize val_main_v30 (F := Ideal) x0 x1 x2 x3 x4 x5 = H
  generalize val_main_v40 (F := Ideal) x0 x1 x2 x3 x4 x5 = A
  generalize val_main_v11 (F := Ideal) x2 = I
  rfl

end Cert.ReferenceIdeal.Hand

end
-- ==== Proof.KernelRun.lean ====
/-
  The kernel program's run with its result named. Every weakly fair execution of the program terminates, leaves the
  eleven argument arrays as they were, and leaves the result array at the contents the last segment boundary assigns to
  it: the program is a stretch of host operations, the first layer's grid of twenty row blocks, a second stretch of host
  operations, and the second layer's grid; `W6` is the buffer contents after the last of these, each boundary's contents
  a function of the boundary before it.
-/
import proofs.«126656_j57638461112953_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array ends at the last boundary's contents of its buffer, the arguments unchanged. -/
theorem run_final : θ_run defs (onTc (τ := τ) (main (F := F))) ⟨m, fun _ => 0, ρ⟩ (fun r => ∀ c : Dev nD,
      r.2.mem ((c.tc : Thread nD τ).loc main_v36) = W6 m ρ c (Proc.devRef .tc main_v36)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v36 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

end Cert.KernelIdeal.Hand

end
-- ==== Proof.LibRowLayout.lean ====
/-
  Layout operations of matrices read at an index `(p, k)`, in the forms a row-blocked matrix kernel needs: a column
  `[a, 1]` broadcast along its rows to `[a, b]` by a vector broadcast, a vector `[a]` cast to the column `[a, 1]`,
  and two matrices with the same rows set side by side along the column axis, read on the left part and on the right
  part. Each reads the operand at the evident index; stated over generic extents.
-/
import Idealize.ShloMosaic.Lib.Pipeline.Value
import Idealize.ShloMosaic.Lib.ValueIdx

noncomputable section

open Idealize.ShloMosaic Idealize.ShloMosaic.ValueIdx

namespace RowLayout

variable {α : Type}

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- A vector `[a]` cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu]; omega)

/-- `[x₁ | x₂]` read at a column of the left part is `x₁` there. -/
theorem concat_cols_left {a b₁ b₂ b : ℕ} (x₁ : (⟨2, ![a, b₁]⟩ : Shape).Idx → α) (x₂ : (⟨2, ![a, b₂]⟩ : Shape).Idx → α)
    (h : Shape.Concatenates [(⟨2, ![a, b₁]⟩ : Shape), ⟨2, ![a, b₂]⟩] ⟨2, ![a, b]⟩ 1) (p : Fin a) (k : Fin b) (hk : k.val < b₁) :
    concatenate ⟨2, ![a, b]⟩ 1 [⟨⟨2, ![a, b₁]⟩, x₁⟩, ⟨⟨2, ![a, b₂]⟩, x₂⟩] h (ix2 p k) = x₁ (ix2 p ⟨k.val, hk⟩) :=
  concatenate_pair_apply_left 1 x₁ x₂ h (ix2 p k) rfl (ix2 p ⟨k.val, hk⟩) fun c => by
    match c with
    | ⟨0, _⟩ => rfl
    | ⟨1, _⟩ => rfl

/-- `[x₁ | x₂]` read at a column of the right part is `x₂` at that column less the left part's width. -/
theorem concat_cols_right {a b₁ b₂ b : ℕ} (x₁ : (⟨2, ![a, b₁]⟩ : Shape).Idx → α) (x₂ : (⟨2, ![a, b₂]⟩ : Shape).Idx → α)
    (h : Shape.Concatenates [(⟨2, ![a, b₁]⟩ : Shape), ⟨2, ![a, b₂]⟩] ⟨2, ![a, b]⟩ 1) (p : Fin a) (k : Fin b) (hk : b₁ ≤ k.val)
    (hk₂ : k.val - b₁ < b₂) :
    concatenate ⟨2, ![a, b]⟩ 1 [⟨⟨2, ![a, b₁]⟩, x₁⟩, ⟨⟨2, ![a, b₂]⟩, x₂⟩] h (ix2 p k) = x₂ (ix2 p ⟨k.val - b₁, hk₂⟩) :=
  concatenate_pair_apply_right 1 x₁ x₂ h (ix2 p k) rfl rfl (ix2 p ⟨k.val - b₁, hk₂⟩)
    (fun c hc => by
      match c with
      | ⟨0, _⟩ => rfl
      | ⟨1, _⟩ => exact absurd rfl hc)
    (by show k.val - b₁ + b₁ = k.val; omega)

end RowLayout

end
-- ==== Proof.Region0.lean ====
import proofs.«126656_j57638461112953_2_alg».proof.Proof.Gen.KernelIdeal.Frame
import proofs.«126656_j57638461112953_2_alg».proof.Proof.Spec
import proofs.«126656_j57638461112953_2_alg».proof.Proof.LibPlainDot
import proofs.«126656_j57638461112953_2_alg».proof.Proof.LibRowLayout
import Idealize.ShloMosaic.Lib.Pipeline.Value
import Idealize.ShloMosaic.Lib.ValueLayout
import Idealize.ShloMosaic.Lib.ValueIdx

set_option maxRecDepth 16384

noncomputable section

namespace Cert.KernelIdeal.Hand

open Cert.KernelIdeal Cert.KernelIdeal.Gen Cert.Sage
open Idealize.ShloMosaic Idealize.ShloMosaic.TcCoe Idealize.ShloMosaic.ValueIdx Idealize.SL.Sem
open Idealize.ShloMosaic.Pipeline (Dat)

/-! # The first layer's grid

The grid has twenty points; point `t` loads rows `5000·t … 5000·t + 4999` of the node features, of the neighbour sums and
of the inverse degrees, the two weight matrices and the bias whole, and writes rows `5000·t …` of the result. Because an
entry of a layer depends on its own row only, what point `t` writes is the same rows of the layer of the WHOLE arrays;
the twenty blocks tile the 100000 rows, so the array ends holding the layer of the arrays the grid was entered with. -/

variable (V : (c : Dev nD) → (b : Ref sig .tc) → Buf (Elt Ideal) ((c : Thread nD τ).loc b))

theorem hz : (![0, 0] : Fin 2 → Nat) = fun _ => 0 := funext fun a => by fin_cases a <;> rfl

/-- The body computes, on the blocks it loads, one layer: the two matrix products are sums over the 64 input features,
    the inverse degree is the block's one column, the bias its one row. -/
theorem pay0_eq (x0 x1 : Vec Ideal S5000x64 .f32) (x2 : Vec Ideal S5000x1 .f32) (x3 x4 : Vec Ideal S64x64 .f32) (x5 : Vec Ideal S1x64 .f32) :
    k0_pay1 x0 x1 x2 x3 x4 x5 = layer x0 x1 x2 x3 x4 (fun c => x5 (ix2 (0 : Fin 1) c)) := by
  funext j
  obtain ⟨p, q, rfl⟩ : ∃ (p : Fin 5000) (q : Fin 64), j = ix2 p q := ⟨j 0, j 1, eq_ix2 j⟩
  unfold k0_pay1
  simp only [maximumf_apply, addf_apply, broadcast_apply, matmul]
  rw [PlainDot.matmul_zero_apply dot_S5000x64_S64x64_S5000x64_1_0_0_1_n_n rfl,
    PlainDot.matmul_zero_apply dot_S5000x64_S64x64_S5000x64_1_0_0_1_n_n rfl, broadcastTo_1b_ab_apply]
  simp only [truncf_apply, mulf_apply, shapeCast_self, RowLayout.broadcastTo_a1_ab_apply]
  rfl

/-- The block index of every window at every grid point: the row-blocked windows are at block row `t`, the whole-array
    windows at block zero. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The three whole-array windows hold their arrays. -/
theorem iblk0_3 (c : Dev nD) (t : Fin cfg0.N) : iblk0 V c 3 t = V c main_arg3 := by
  obtain ⟨-, -, -, -, -, -, e0, e1, -⟩ := idx0 t
  funext j
  show V c main_arg3 (((cfg0.win 3).blk t).view.emb j) = V c main_arg3 j
  refine congrArg _ (funext fun a => Fin.ext ?_)
  match a with
  | ⟨0, _⟩ => show win0_3.index t (0 : Fin 2) * 64 + 1 * (j 0).val = (j 0).val; omega
  | ⟨1, _⟩ => show win0_3.index t (1 : Fin 2) * 64 + 1 * (j 1).val = (j 1).val; omega
theorem iblk0_4 (c : Dev nD) (t : Fin cfg0.N) : iblk0 V c 4 t = V c main_arg4 := by
  obtain ⟨-, -, -, -, -, -, -, -, e0, e1, -⟩ := idx0 t
  funext j
  show V c main_arg4 (((cfg0.win 4).blk t).view.emb j) = V c main_arg4 j
  refine congrArg _ (funext fun a => Fin.ext ?_)
  match a with
  | ⟨0, _⟩ => show win0_4.index t (0 : Fin 2) * 64 + 1 * (j 0).val = (j 0).val; omega
  | ⟨1, _⟩ => show win0_4.index t (1 : Fin 2) * 64 + 1 * (j 1).val = (j 1).val; omega
theorem iblk0_5 (c : Dev nD) (t : Fin cfg0.N) : iblk0 V c 5 t = V c main_v22 := by
  obtain ⟨-, -, -, -, -, -, -, -, -, -, e0, e1, -⟩ := idx0 t
  funext j
  show V c main_v22 (((cfg0.win 5).blk t).view.emb j) = V c main_v22 j
  refine congrArg _ (funext fun a => Fin.ext ?_)
  match a with
  | ⟨0, _⟩ => show win0_5.index t (0 : Fin 2) * 1 + 1 * (j 0).val = (j 0).val; omega
  | ⟨1, _⟩ => show win0_5.index t (1 : Fin 2) * 64 + 1 * (j 1).val = (j 1).val; omega

/-- The first layer of the arrays the grid is entered with. -/
abbrev G0 (c : Dev nD) : Buf (Elt Ideal) ((c : Thread nD τ).loc main_v23) :=
  layer (n := 100000) (V c main_arg0) (V c main_v21) (V c main_v11) (V c main_arg3) (V c main_arg4)
    (fun k => V c main_v22 (ix2 (0 : Fin 1) k))

/-- What point `t` writes back is rows `5000·t …` of that layer. -/
theorem flushed0_eq (c : Dev nD) (t : Fin cfg0.N) :
    (dat0 V c).flushed 6 t = ((cfg0.win 6).blk t).view.read (Elt Ideal) (G0 V c) := by
  show (cfg0.win 6).cut (grid0.coords t) ((dat0 V c).after 6 t) = _
  rw [after0_6]
  unfold out0_6
  rw [View.canon_unit_zero hz]
  simp only [View.ld_unit_zero (S := S5000x64) hz, View.ld_unit_zero (S := S5000x1) hz, View.ld_unit_zero (S := S64x64) hz,
    View.ld_unit_zero (S := S1x64) hz]
  rw [pay0_eq, iblk0_3 V c t, iblk0_4 V c t, iblk0_5 V c t]
  obtain ⟨a0, a1, b0, b1, c0, c1, -, -, -, -, -, -, g0, g1⟩ := idx0 t
  funext y
  obtain ⟨p, q, rfl⟩ : ∃ (p : Fin 5000) (q : Fin 64), y = ix2 p q := ⟨y 0, y 1, eq_ix2 y⟩
  have hN : cfg0.N = 20 := N_0
  have hr : t.val * 5000 + p.val < 100000 := by have := t.isLt; have := p.isLt; omega
  have he : ((cfg0.win 6).blk t).view.emb (ix2 p q) = ix2 (⟨t.val * 5000 + p.val, hr⟩ : Fin 100000) q := by
    funext a; apply Fin.ext
    match a with
    | ⟨0, _⟩ => show win0_6.index t (0 : Fin 2) * 5000 + 1 * p.val = t.val * 5000 + p.val; omega
    | ⟨1, _⟩ => show win0_6.index t (1 : Fin 2) * 64 + 1 * q.val = q.val; omega
  show layer (iblk0 V c 0 t) (iblk0 V c 1 t) (iblk0 V c 2 t) (V c main_arg3) (V c main_arg4)
      (fun k => V c main_v22 (ix2 (0 : Fin 1) k)) (ix2 p q) = G0 V c (((cfg0.win 6).blk t).view.emb (ix2 p q))
  rw [he]
  refine layer_rows (V c main_arg0) (V c main_v21) (V c main_v11) (iblk0 V c 0 t) (iblk0 V c 1 t) (iblk0 V c 2 t) _ _ _
    (⟨t.val * 5000 + p.val, hr⟩ : Fin 100000) p q ?_ ?_ ?_
  · intro k
    show V c main_arg0 (((cfg0.win 0).blk t).view.emb (ix2 p k)) = V c main_arg0 (ix2 (⟨t.val * 5000 + p.val, hr⟩ : Fin 100000) k)
    refine congrArg _ (funext fun a => Fin.ext ?_)
    match a with
    | ⟨0, _⟩ => show win0_0.index t (0 : Fin 2) * 5000 + 1 * p.val = t.val * 5000 + p.val; omega
    | ⟨1, _⟩ => show win0_0.index t (1 : Fin 2) * 64 + 1 * k.val = k.val; omega
  · intro k
    show V c main_v21 (((cfg0.win 1).blk t).view.emb (ix2 p k)) = V c main_v21 (ix2 (⟨t.val * 5000 + p.val, hr⟩ : Fin 100000) k)
    refine congrArg _ (funext fun a => Fin.ext ?_)
    match a with
    | ⟨0, _⟩ => show win0_1.index t (0 : Fin 2) * 5000 + 1 * p.val = t.val * 5000 + p.val; omega
    | ⟨1, _⟩ => show win0_1.index t (1 : Fin 2) * 64 + 1 * k.val = k.val; omega
  · show V c main_v11 (((cfg0.win 2).blk t).view.emb (ix2 p (0 : Fin 1))) = V c main_v11 (ix2 (⟨t.val * 5000 + p.val, hr⟩ : Fin 100000) (0 : Fin 1))
    refine congrArg _ (funext fun a => Fin.ext ?_)
    match a with
    | ⟨0, _⟩ => show win0_2.index t (0 : Fin 2) * 5000 + 1 * p.val = t.val * 5000 + p.val; omega
    | ⟨1, _⟩ => show win0_2.index t (1 : Fin 2) * 1 + 1 * 0 = 0; omega

/-- An index is in point `t`'s block iff each coordinate is in the block's range on its axis. -/
theorem mem_blk0 (t : Fin cfg0.N) (i : S100000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v23).slice (win0_6.rect t)).set ↔ _
  rw [View.set_slice_whole, Rect.mem_set_unit]
  exact Iff.rfl

/-- Every row is in the block of the point `row / 5000`. -/
theorem cover0 (i : S100000x64.Idx) : ∃ t : Fin cfg0.N, (cfg0.win 6).flush t = true ∧ i ∈ ((cfg0.win 6).blk t).view.set := by
  have hi0 : (i 0).val < 100000 := (i 0).isLt
  have hi1 : (i 1).val < 64 := (i 1).isLt
  have hN : cfg0.N = 20 := N_0
  have ht : (i 0).val / 5000 < cfg0.N := by omega
  obtain ⟨-, -, -, -, -, -, -, -, -, -, -, -, g0, g1⟩ := idx0 ⟨(i 0).val / 5000, ht⟩
  refine ⟨⟨(i 0).val / 5000, ht⟩, flush0_6 _, ?_⟩
  rw [mem_blk0]
  intro a
  match a with
  | ⟨0, _⟩ =>
    show win0_6.index ⟨(i 0).val / 5000, ht⟩ (0 : Fin 2) * 5000 ≤ (i 0).val ∧ (i 0).val < win0_6.index ⟨(i 0).val / 5000, ht⟩ (0 : Fin 2) * 5000 + 5000
    have g0' : win0_6.index ⟨(i 0).val / 5000, ht⟩ (0 : Fin 2) = (i 0).val / 5000 := g0
    omega
  | ⟨1, _⟩ =>
    show win0_6.index ⟨(i 0).val / 5000, ht⟩ (1 : Fin 2) * 64 ≤ (i 1).val ∧ (i 1).val < win0_6.index ⟨(i 0).val / 5000, ht⟩ (1 : Fin 2) * 64 + 64
    omega

/-- THE FIRST LAYER'S ARRAY after its grid: the layer of the arrays the grid was entered with. -/
theorem final0 (c : Dev nD) : (dat0 V c).arrAt 6 cfg0.N = G0 V c :=
  (dat0 V c).arrAt_eq_of_cover 6 (G0 V c) (fun t _ => flushed0_eq V c t) cover0

end Cert.KernelIdeal.Hand

end
-- ==== Proof.Payload1.lean ====
import proofs.«126656_j57638461112953_2_alg».proof.Proof.Gen.KernelIdeal.Frame
import proofs.«126656_j57638461112953_2_alg».proof.Proof.Spec
import proofs.«126656_j57638461112953_2_alg».proof.Proof.LibPlainDot
import proofs.«126656_j57638461112953_2_alg».proof.Proof.LibRowLayout
import proofs.«126656_j57638461112953_2_alg».proof.Proof.LibRowReduce
import Idealize.ShloMosaic.Lib.Pipeline.Value
import Idealize.ShloMosaic.Lib.ValueLayout
import Idealize.ShloMosaic.Lib.ValueIdx

set_option maxRecDepth 16384

noncomputable section

namespace Cert.KernelIdeal.Hand

open Cert.KernelIdeal Cert.KernelIdeal.Gen Cert.Sage
open Idealize.ShloMosaic Idealize.ShloMosaic.TcCoe Idealize.ShloMosaic.ValueIdx Idealize.SL.Sem
open Idealize.ShloMosaic.Pipeline (Dat)

/-! # The second layer's grid, with the classifier and the softmax

Point `t` of the second grid loads rows `5000·t …` of the first layer's output, of its neighbour sums and of the inverse
degrees, the weights and biases whole, and writes rows `5000·t …` of the class probabilities. Every step is row-wise — the
layer, the sixteen logits of a row, the row's largest logit, the exponentials and their sum over the row — so the block a
point writes is the same rows of the head of the WHOLE arrays, and the twenty blocks tile the 100000 rows. -/

variable (V : (c : Dev nD) → (b : Ref sig .tc) → Buf (Elt Ideal) ((c : Thread nD τ).loc b))

theorem hz1 : (![0, 0] : Fin 2 → Nat) = fun _ => 0 := funext fun a => by fin_cases a <;> rfl

/-- For a block `L` of logits: the exponential of a logit less its row's largest, as the body spells it (a lane maximum
    from `−∞`, set as a column, spread over the sixteen classes, subtracted). -/
theorem shifted_exp_at (L : FVec Ideal S5000x16 .f32) (p : Fin 5000) (q : Fin 16) :
    exp (subf L (broadcastTo S5000x16 (shapeCast S5000x1
        (multiReduction .maximumf [1] S5000 L 0xFF800000#32 reduces_S5000x16_S5000 (.inl rfl) rfl) shapeCasts_S5000_S5000x1)
        broadcasts_S5000x1_S5000x16)) (ix2 p q)
      = Ideal.exp (L (ix2 p q) - rowMax (fun q' => L (ix2 p q'))) := by
  show Ideal.exp (L (ix2 p q) - broadcastTo S5000x16 (shapeCast S5000x1
        (multiReduction .maximumf [1] S5000 L 0xFF800000#32 reduces_S5000x16_S5000 (.inl rfl) rfl) shapeCasts_S5000_S5000x1)
        broadcasts_S5000x1_S5000x16 (ix2 p q)) = _
  rw [RowLayout.broadcastTo_a1_ab_apply, RowLayout.shapeCast_a_a1_apply]
  exact congrArg (fun z => Ideal.exp (L (ix2 p q) - z)) (RowReduce.multiReduction_max_row L _ _ _ _ p)

/-- For a block `E` of exponentials: an entry divided by its row's sum, as the body spells it (a lane sum from zero, set
    as a column, spread over the sixteen classes, divided by). -/
theorem normalised_at (E : FVec Ideal S5000x16 .f32) (p : Fin 5000) (q : Fin 16) :
    divf E (broadcastTo S5000x16 (shapeCast S5000x1
        (multiReduction .add [1] S5000 E 0x00000000#32 reduces_S5000x16_S5000 (.inl rfl) rfl) shapeCasts_S5000_S5000x1)
        broadcasts_S5000x1_S5000x16) (ix2 p q)
      = Ideal.div (E (ix2 p q)) (∑ q' : Fin 16, E (ix2 p q')) := by
  show Ideal.div (E (ix2 p q)) (broadcastTo S5000x16 (shapeCast S5000x1
        (multiReduction .add [1] S5000 E 0x00000000#32 reduces_S5000x16_S5000 (.inl rfl) rfl) shapeCasts_S5000_S5000x1)
        broadcasts_S5000x1_S5000x16 (ix2 p q)) = _
  rw [RowLayout.broadcastTo_a1_ab_apply, RowLayout.shapeCast_a_a1_apply]
  exact congrArg (fun z => Ideal.div (E (ix2 p q)) z) (RowReduce.multiReduction_add_row E _ _ _ _ p)

/-- The sixteen logits of block row `p`: the second layer of the row, times the classifier's weights, plus its bias. -/
abbrev blockLogits (x0 x1 : Vec Ideal S5000x64 .f32) (x2 : Vec Ideal S5000x1 .f32) (x3 x4 : Vec Ideal S64x64 .f32)
    (x5 : Vec Ideal S1x64 .f32) (x6 : Vec Ideal S64x16 .f32) (x7 : Vec Ideal S1x16 .f32) (p : Fin 5000) (q : Fin 16) : EReal :=
  (∑ k : Fin 64, layerRow (fun j => x0 (ix2 p j)) (fun j => x1 (ix2 p j)) (x2 (ix2 p (0 : Fin 1)))
      (fun k c => x3 (ix2 k c)) (fun k c => x4 (ix2 k c)) (fun c => x5 (ix2 (0 : Fin 1) c)) k * x6 (ix2 k q))
    + x7 (ix2 (0 : Fin 1) q)

/-- The body's exponentials: of each logit less its row's largest. -/
theorem pay2_at (x0 x1 : Vec Ideal S5000x64 .f32) (x2 : Vec Ideal S5000x1 .f32) (x3 x4 : Vec Ideal S64x64 .f32)
    (x5 : Vec Ideal S1x64 .f32) (x6 : Vec Ideal S64x16 .f32) (x7 : Vec Ideal S1x16 .f32) (p : Fin 5000) (q : Fin 16) :
    k1_pay2 x0 x1 x2 x3 x4 x5 x6 x7 (ix2 p q)
      = Ideal.exp (blockLogits x0 x1 x2 x3 x4 x5 x6 x7 p q - rowMax (blockLogits x0 x1 x2 x3 x4 x5 x6 x7 p)) := by
  unfold k1_pay2
  generalize hL : addf (F := Ideal) (matmul (F := Ideal) dot_S5000x64_S64x16_S5000x16_1_0_0_1_n_n none _ _ _) _ = L
  have hrow : ∀ q' : Fin 16, L (ix2 p q') = blockLogits x0 x1 x2 x3 x4 x5 x6 x7 p q' := by
    intro q'
    rw [← hL]
    simp only [addf_apply, matmul]
    rw [PlainDot.matmul_zero_apply dot_S5000x64_S64x16_S5000x16_1_0_0_1_n_n rfl, broadcastTo_1b_ab_apply]
    simp only [truncf_apply, shapeCast_self, maximumf_apply, addf_apply, broadcast_apply, mulf_apply,
      PlainDot.matmul_zero_apply dot_S5000x64_S64x64_S5000x64_1_0_0_1_n_n rfl, broadcastTo_1b_ab_apply,
      RowLayout.broadcastTo_a1_ab_apply]
    rfl
  rw [shifted_exp_at, hrow q, funext hrow]

/-- The body on the blocks it loads: the head of those blocks. -/
theorem pay1_eq (x0 x1 : Vec Ideal S5000x64 .f32) (x2 : Vec Ideal S5000x1 .f32) (x3 x4 : Vec Ideal S64x64 .f32)
    (x5 : Vec Ideal S1x64 .f32) (x6 : Vec Ideal S64x16 .f32) (x7 : Vec Ideal S1x16 .f32) :
    k1_pay1 (k1_pay2 x0 x1 x2 x3 x4 x5 x6 x7) (k1_pay3 x0 x1 x2 x3 x4 x5 x6 x7)
      = head x0 x1 x2 x3 x4 (fun c => x5 (ix2 (0 : Fin 1) c)) x6 (fun q => x7 (ix2 (0 : Fin 1) q)) := by
  funext j
  obtain ⟨p, q, rfl⟩ : ∃ (p : Fin 5000) (q : Fin 16), j = ix2 p q := ⟨j 0, j 1, eq_ix2 j⟩
  unfold k1_pay1 k1_pay3
  rw [normalised_at]
  simp only [pay2_at]
  rfl

end Cert.KernelIdeal.Hand

end
-- ==== Proof.Region1.lean ====
import proofs.«126656_j57638461112953_2_alg».proof.Proof.Gen.KernelIdeal.Frame
import proofs.«126656_j57638461112953_2_alg».proof.Proof.Spec
import proofs.«126656_j57638461112953_2_alg».proof.Proof.Payload1
import Idealize.ShloMosaic.Lib.Pipeline.Value
import Idealize.ShloMosaic.Lib.ValueIdx

set_option maxRecDepth 16384

noncomputable section

namespace Cert.KernelIdeal.Hand

open Cert.KernelIdeal Cert.KernelIdeal.Gen Cert.Sage
open Idealize.ShloMosaic Idealize.ShloMosaic.TcCoe Idealize.ShloMosaic.ValueIdx Idealize.SL.Sem
open Idealize.ShloMosaic.Pipeline (Dat)

/-! # From the second grid's blocks to its array

What point `t` of the second grid writes is rows `5000·t …` of the head (second layer, classifier, softmax) of the
WHOLE arrays the grid is entered with, because every step of the head is row-wise; the twenty blocks tile the rows. -/

variable (V : (c : Dev nD) → (b : Ref sig .tc) → Buf (Elt Ideal) ((c : Thread nD τ).loc b))

/-- The block index of every window at every grid point: the row-blocked windows are at block row `t`, the whole-array
    windows at block zero. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

/-- The five whole-array windows hold their arrays. -/
theorem iblk1_3 (c : Dev nD) (t : Fin cfg1.N) : iblk1 V c 3 t = V c main_arg6 := by
  have h := idx1 t
  funext j
  show V c main_arg6 (((cfg1.win 3).blk t).view.emb j) = V c main_arg6 j
  refine congrArg _ (funext fun a => Fin.ext ?_)
  match a with
  | ⟨0, _⟩ => show win1_3.index t (0 : Fin 2) * 64 + 1 * (j 0).val = (j 0).val; omega
  | ⟨1, _⟩ => show win1_3.index t (1 : Fin 2) * 64 + 1 * (j 1).val = (j 1).val; omega
theorem iblk1_4 (c : Dev nD) (t : Fin cfg1.N) : iblk1 V c 4 t = V c main_arg7 := by
  have h := idx1 t
  funext j
  show V c main_arg7 (((cfg1.win 4).blk t).view.emb j) = V c main_arg7 j
  refine congrArg _ (funext fun a => Fin.ext ?_)
  match a with
  | ⟨0, _⟩ => show win1_4.index t (0 : Fin 2) * 64 + 1 * (j 0).val = (j 0).val; omega
  | ⟨1, _⟩ => show win1_4.index t (1 : Fin 2) * 64 + 1 * (j 1).val = (j 1).val; omega
theorem iblk1_5 (c : Dev nD) (t : Fin cfg1.N) : iblk1 V c 5 t = V c main_v34 := by
  have h := idx1 t
  funext j
  show V c main_v34 (((cfg1.win 5).blk t).view.emb j) = V c main_v34 j
  refine congrArg _ (funext fun a => Fin.ext ?_)
  match a with
  | ⟨0, _⟩ => show win1_5.index t (0 : Fin 2) * 1 + 1 * (j 0).val = (j 0).val; omega
  | ⟨1, _⟩ => show win1_5.index t (1 : Fin 2) * 64 + 1 * (j 1).val = (j 1).val; omega
theorem iblk1_6 (c : Dev nD) (t : Fin cfg1.N) : iblk1 V c 6 t = V c main_arg9 := by
  have h := idx1 t
  funext j
  show V c main_arg9 (((cfg1.win 6).blk t).view.emb j) = V c main_arg9 j
  refine congrArg _ (funext fun a => Fin.ext ?_)
  match a with
  | ⟨0, _⟩ => show win1_6.index t (0 : Fin 2) * 64 + 1 * (j 0).val = (j 0).val; omega
  | ⟨1, _⟩ => show win1_6.index t (1 : Fin 2) * 16 + 1 * (j 1).val = (j 1).val; omega
theorem iblk1_7 (c : Dev nD) (t : Fin cfg1.N) : iblk1 V c 7 t = V c main_v35 := by
  have h := idx1 t
  funext j
  show V c main_v35 (((cfg1.win 7).blk t).view.emb j) = V c main_v35 j
  refine congrArg _ (funext fun a => Fin.ext ?_)
  match a with
  | ⟨0, _⟩ => show win1_7.index t (0 : Fin 2) * 1 + 1 * (j 0).val = (j 0).val; omega
  | ⟨1, _⟩ => show win1_7.index t (1 : Fin 2) * 16 + 1 * (j 1).val = (j 1).val; omega

/-- The head of the arrays the second grid is entered with. -/
abbrev G1 (c : Dev nD) : Buf (Elt Ideal) ((c : Thread nD τ).loc main_v36) :=
  head (n := 100000) (V c main_v23) (V c main_v33) (V c main_v11) (V c main_arg6) (V c main_arg7)
    (fun k => V c main_v34 (ix2 (0 : Fin 1) k)) (V c main_arg9) (fun q => V c main_v35 (ix2 (0 : Fin 1) q))

/-- What point `t` writes back is rows `5000·t …` of that head. -/
theorem flushed1_eq (c : Dev nD) (t : Fin cfg1.N) :
    (dat1 V c).flushed 8 t = ((cfg1.win 8).blk t).view.read (Elt Ideal) (G1 V c) := by
  show (cfg1.win 8).cut (grid1.coords t) ((dat1 V c).after 8 t) = _
  rw [after1_8]
  unfold out1_8
  rw [View.canon_unit_zero hz1]
  simp only [View.ld_unit_zero (S := S5000x64) hz1, View.ld_unit_zero (S := S5000x1) hz1, View.ld_unit_zero (S := S64x64) hz1,
    View.ld_unit_zero (S := S1x64) hz1, View.ld_unit_zero (S := S64x16) hz1, View.ld_unit_zero (S := S1x16) hz1]
  rw [pay1_eq, iblk1_3 V c t, iblk1_4 V c t, iblk1_5 V c t, iblk1_6 V c t, iblk1_7 V c t]
  have h := idx1 t
  funext y
  obtain ⟨p, q, rfl⟩ : ∃ (p : Fin 5000) (q : Fin 16), y = ix2 p q := ⟨y 0, y 1, eq_ix2 y⟩
  have hN : cfg1.N = 20 := N_1
  have hr : t.val * 5000 + p.val < 100000 := by have := t.isLt; have := p.isLt; omega
  have he : ((cfg1.win 8).blk t).view.emb (ix2 p q) = ix2 (⟨t.val * 5000 + p.val, hr⟩ : Fin 100000) q := by
    funext a; apply Fin.ext
    match a with
    | ⟨0, _⟩ => show win1_8.index t (0 : Fin 2) * 5000 + 1 * p.val = t.val * 5000 + p.val; omega
    | ⟨1, _⟩ => show win1_8.index t (1 : Fin 2) * 16 + 1 * q.val = q.val; omega
  show head (iblk1 V c 0 t) (iblk1 V c 1 t) (iblk1 V c 2 t) (V c main_arg6) (V c main_arg7)
      (fun k => V c main_v34 (ix2 (0 : Fin 1) k)) (V c main_arg9) (fun q => V c main_v35 (ix2 (0 : Fin 1) q)) (ix2 p q)
    = G1 V c (((cfg1.win 8).blk t).view.emb (ix2 p q))
  rw [he]
  refine head_rows (V c main_v23) (V c main_v33) (V c main_v11) (iblk1 V c 0 t) (iblk1 V c 1 t) (iblk1 V c 2 t) _ _ _ _ _
    (⟨t.val * 5000 + p.val, hr⟩ : Fin 100000) p q ?_ ?_ ?_
  · intro k
    show V c main_v23 (((cfg1.win 0).blk t).view.emb (ix2 p k)) = V c main_v23 (ix2 (⟨t.val * 5000 + p.val, hr⟩ : Fin 100000) k)
    refine congrArg _ (funext fun a => Fin.ext ?_)
    match a with
    | ⟨0, _⟩ => show win1_0.index t (0 : Fin 2) * 5000 + 1 * p.val = t.val * 5000 + p.val; omega
    | ⟨1, _⟩ => show win1_0.index t (1 : Fin 2) * 64 + 1 * k.val = k.val; omega
  · intro k
    show V c main_v33 (((cfg1.win 1).blk t).view.emb (ix2 p k)) = V c main_v33 (ix2 (⟨t.val * 5000 + p.val, hr⟩ : Fin 100000) k)
    refine congrArg _ (funext fun a => Fin.ext ?_)
    match a with
    | ⟨0, _⟩ => show win1_1.index t (0 : Fin 2) * 5000 + 1 * p.val = t.val * 5000 + p.val; omega
    | ⟨1, _⟩ => show win1_1.index t (1 : Fin 2) * 64 + 1 * k.val = k.val; omega
  ·
    show V c main_v11 (((cfg1.win 2).blk t).view.emb (ix2 p (0 : Fin 1))) = V c main_v11 (ix2 (⟨t.val * 5000 + p.val, hr⟩ : Fin 100000) (0 : Fin 1))
    refine congrArg _ (funext fun a => Fin.ext ?_)
    match a with
    | ⟨0, _⟩ => show win1_2.index t (0 : Fin 2) * 5000 + 1 * p.val = t.val * 5000 + p.val; omega
    | ⟨1, _⟩ => show win1_2.index t (1 : Fin 2) * 1 + 1 * 0 = 0; omega

/-- An index is in point `t`'s block iff each coordinate is in the block's range on its axis. -/
theorem mem_blk1 (t : Fin cfg1.N) (i : S100000x16.Idx) :
    i ∈ ((cfg1.win 8).blk t).view.set ↔ ∀ a : Fin 2, win1_8.index t a * S5000x16.size a ≤ (i a).val ∧ (i a).val < win1_8.index t a * S5000x16.size a + S5000x16.size a := by
  show i ∈ ((View.whole main_v36).slice (win1_8.rect t)).set ↔ _
  rw [View.set_slice_whole, Rect.mem_set_unit]
  exact Iff.rfl

/-- Every row is in the block of the point `row / 5000`. -/
theorem cover1 (i : S100000x16.Idx) : ∃ t : Fin cfg1.N, (cfg1.win 8).flush t = true ∧ i ∈ ((cfg1.win 8).blk t).view.set := by
  have hi0 : (i 0).val < 100000 := (i 0).isLt
  have hi1 : (i 1).val < 16 := (i 1).isLt
  have hN : cfg1.N = 20 := N_1
  have ht : (i 0).val / 5000 < cfg1.N := by omega
  have h := idx1 ⟨(i 0).val / 5000, ht⟩
  refine ⟨⟨(i 0).val / 5000, ht⟩, flush1_8 _, ?_⟩
  rw [mem_blk1]
  intro a
  match a with
  | ⟨0, _⟩ =>
    show win1_8.index ⟨(i 0).val / 5000, ht⟩ (0 : Fin 2) * 5000 ≤ (i 0).val ∧ (i 0).val < win1_8.index ⟨(i 0).val / 5000, ht⟩ (0 : Fin 2) * 5000 + 5000
    have g0' : win1_8.index ⟨(i 0).val / 5000, ht⟩ (0 : Fin 2) = (i 0).val / 5000 := h.2.2.2.2.2.2.2.2.2.2.2.2.2.2.2.2.1
    omega
  | ⟨1, _⟩ =>
    show win1_8.index ⟨(i 0).val / 5000, ht⟩ (1 : Fin 2) * 16 ≤ (i 1).val ∧ (i 1).val < win1_8.index ⟨(i 0).val / 5000, ht⟩ (1 : Fin 2) * 16 + 16
    have g1' : win1_8.index ⟨(i 0).val / 5000, ht⟩ (1 : Fin 2) = 0 := h.2.2.2.2.2.2.2.2.2.2.2.2.2.2.2.2.2
    omega

/-- THE RESULT ARRAY after the second grid: the head of the arrays the grid was entered with. -/
theorem final1 (c : Dev nD) : (dat1 V c).arrAt 8 cfg1.N = G1 V c :=
  (dat1 V c).arrAt_eq_of_cover 8 (G1 V c) (fun t _ => flushed1_eq V c t) cover1

end Cert.KernelIdeal.Hand

end
-- ==== Proof.Glue.lean ====
import proofs.«126656_j57638461112953_2_alg».proof.Proof.Gen.KernelIdeal.Frame
import proofs.«126656_j57638461112953_2_alg».proof.Proof.RefRead
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Cert.ReferenceIdeal.ReadP (val_main_v21 val_main_v11 val_main_v3)

/-! # The host operations around the two grids

Before the first grid the program counts in-degrees, inverts them, and sums each node's in-neighbours' feature rows;
between the grids it sums the in-neighbours' rows of the first layer's output. These are the same host operations the
reference applies, so they are carried as the reference's own stages: `val_main_v21 h src dst` is the neighbour sum of a
feature array `h` along the edges, `val_main_v11 dst` the inverse-degree column. No host operation writes an argument. -/

variable (m : (ℓ : Loc nD τ sig) → Buf (Elt Ideal) ℓ) (ρ : Dev nD → PrngReg)

/-! ## What the first grid is entered with -/

set_option maxHeartbeats 4000000 in
theorem V3_arg0 (c : Dev nD) : V3 m ρ c main_arg0 = m ((c : Thread nD τ).loc main_arg0) := by
  show StableHlo.after hostOps0_2 (StableHlo.after hostOps0_1 (StableHlo.after hostOps0 (W0 m ρ c))) (Proc.devRef .tc main_arg0) = _
  after_results_simp <;> rfl
set_option maxHeartbeats 4000000 in
theorem V3_arg1 (c : Dev nD) : V3 m ρ c main_arg1 = m ((c : Thread nD τ).loc main_arg1) := by
  show StableHlo.after hostOps0_2 (StableHlo.after hostOps0_1 (StableHlo.after hostOps0 (W0 m ρ c))) (Proc.devRef .tc main_arg1) = _
  after_results_simp <;> rfl
set_option maxHeartbeats 4000000 in
theorem V3_arg2 (c : Dev nD) : V3 m ρ c main_arg2 = m ((c : Thread nD τ).loc main_arg2) := by
  show StableHlo.after hostOps0_2 (StableHlo.after hostOps0_1 (StableHlo.after hostOps0 (W0 m ρ c))) (Proc.devRef .tc main_arg2) = _
  after_results_simp <;> rfl
set_option maxHeartbeats 4000000 in
theorem V3_arg3 (c : Dev nD) : V3 m ρ c main_arg3 = m ((c : Thread nD τ).loc main_arg3) := by
  show StableHlo.after hostOps0_2 (StableHlo.after hostOps0_1 (StableHlo.after hostOps0 (W0 m ρ c))) (Proc.devRef .tc main_arg3) = _
  after_results_simp <;> rfl
set_option maxHeartbeats 4000000 in
theorem V3_arg4 (c : Dev nD) : V3 m ρ c main_arg4 = m ((c : Thread nD τ).loc main_arg4) := by
  show StableHlo.after hostOps0_2 (StableHlo.after hostOps0_1 (StableHlo.after hostOps0 (W0 m ρ c))) (Proc.devRef .tc main_arg4) = _
  after_results_simp <;> rfl
set_option maxHeartbeats 4000000 in
theorem V3_arg6 (c : Dev nD) : V3 m ρ c main_arg6 = m ((c : Thread nD τ).loc main_arg6) := by
  show StableHlo.after hostOps0_2 (StableHlo.after hostOps0_1 (StableHlo.after hostOps0 (W0 m ρ c))) (Proc.devRef .tc main_arg6) = _
  after_results_simp <;> rfl
set_option maxHeartbeats 4000000 in
theorem V3_arg7 (c : Dev nD) : V3 m ρ c main_arg7 = m ((c : Thread nD τ).loc main_arg7) := by
  show StableHlo.after hostOps0_2 (StableHlo.after hostOps0_1 (StableHlo.after hostOps0 (W0 m ρ c))) (Proc.devRef .tc main_arg7) = _
  after_results_simp <;> rfl
set_option maxHeartbeats 4000000 in
theorem V3_arg8 (c : Dev nD) : V3 m ρ c main_arg8 = m ((c : Thread nD τ).loc main_arg8) := by
  show StableHlo.after hostOps0_2 (StableHlo.after hostOps0_1 (StableHlo.after hostOps0 (W0 m ρ c))) (Proc.devRef .tc main_arg8) = _
  after_results_simp <;> rfl
set_option maxHeartbeats 4000000 in
theorem V3_arg9 (c : Dev nD) : V3 m ρ c main_arg9 = m ((c : Thread nD τ).loc main_arg9) := by
  show StableHlo.after hostOps0_2 (StableHlo.after hostOps0_1 (StableHlo.after hostOps0 (W0 m ρ c))) (Proc.devRef .tc main_arg9) = _
  after_results_simp <;> rfl
set_option maxHeartbeats 4000000 in
theorem V3_arg10 (c : Dev nD) : V3 m ρ c main_arg10 = m ((c : Thread nD τ).loc main_arg10) := by
  show StableHlo.after hostOps0_2 (StableHlo.after hostOps0_1 (StableHlo.after hostOps0 (W0 m ρ c))) (Proc.devRef .tc main_arg10) = _
  after_results_simp <;> rfl
set_option maxHeartbeats 4000000 in
theorem V3_v21 (c : Dev nD) : V3 m ρ c main_v21 = val_main_v21 (F := Ideal) (m ((c : Thread nD τ).loc main_arg0)) (m ((c : Thread nD τ).loc main_arg1)) (m ((c : Thread nD τ).loc main_arg2)) := by
  show StableHlo.after hostOps0_2 (StableHlo.after hostOps0_1 (StableHlo.after hostOps0 (W0 m ρ c))) (Proc.devRef .tc main_v21) = _
  after_results_simp <;> rfl
/-- The typed references of the inlined `where` are the references themselves: each transport along a buffer's type
    equation is the identity. -/
theorem toBuf_v10 (v : (⟨S100000, .f32⟩ : BufTy).Contents (Elt Ideal)) (h1 : main_v10.ty = (⟨S100000, .f32⟩ : BufTy)) (h2 : main_v10.space ≠ .host) (h3 : main_v10.isScoped = false) :
    (TRef.of (T := ⟨S100000, .f32⟩) main_v10 h1 h2 h3).toBuf v = v := cast_eq _ _
theorem toBuf_c0v1 (v : (⟨S100000, .f32⟩ : BufTy).Contents (Elt Ideal)) (h1 : main_call0_v1.ty = (⟨S100000, .f32⟩ : BufTy)) (h2 : main_call0_v1.space ≠ .host) (h3 : main_call0_v1.isScoped = false) :
    (TRef.of (T := ⟨S100000, .f32⟩) main_call0_v1 h1 h2 h3).toBuf v = v := cast_eq _ _
theorem toBuf_c0v0 (v : (⟨S_, .f32⟩ : BufTy).Contents (Elt Ideal)) (h1 : main_call0_v0.ty = (⟨S_, .f32⟩ : BufTy)) (h2 : main_call0_v0.space ≠ .host) (h3 : main_call0_v0.isScoped = false) :
    (TRef.of (T := ⟨S_, .f32⟩) main_call0_v0 h1 h2 h3).toBuf v = v := cast_eq _ _
theorem ofBuf_v5 (v : (⟨S100000, .i1⟩ : BufTy).Contents (Elt Ideal)) (h1 : main_v5.ty = (⟨S100000, .i1⟩ : BufTy)) (h2 : main_v5.space ≠ .host) (h3 : main_v5.isScoped = false) :
    (TRef.of (T := ⟨S100000, .i1⟩) main_v5 h1 h2 h3).ofBuf v = v := cast_eq _ _
theorem ofBuf_v9 (v : (⟨S100000, .f32⟩ : BufTy).Contents (Elt Ideal)) (h1 : main_v9.ty = (⟨S100000, .f32⟩ : BufTy)) (h2 : main_v9.space ≠ .host) (h3 : main_v9.isScoped = false) :
    (TRef.of (T := ⟨S100000, .f32⟩) main_v9 h1 h2 h3).ofBuf v = v := cast_eq _ _
theorem ofBuf_c0v1 (v : (⟨S100000, .f32⟩ : BufTy).Contents (Elt Ideal)) (h1 : main_call0_v1.ty = (⟨S100000, .f32⟩ : BufTy)) (h2 : main_call0_v1.space ≠ .host) (h3 : main_call0_v1.isScoped = false) :
    (TRef.of (T := ⟨S100000, .f32⟩) main_call0_v1 h1 h2 h3).ofBuf v = v := cast_eq _ _
theorem ofBuf_c0v0 (v : (⟨S_, .f32⟩ : BufTy).Contents (Elt Ideal)) (h1 : main_call0_v0.ty = (⟨S_, .f32⟩ : BufTy)) (h2 : main_call0_v0.space ≠ .host) (h3 : main_call0_v0.isScoped = false) :
    (TRef.of (T := ⟨S_, .f32⟩) main_call0_v0 h1 h2 h3).ofBuf v = v := cast_eq _ _
theorem ofBuf_cst4 (v : (⟨S_, .f32⟩ : BufTy).Contents (Elt Ideal)) (h1 : main_cst_4.ty = (⟨S_, .f32⟩ : BufTy)) (h2 : main_cst_4.space ≠ .host) (h3 : main_cst_4.isScoped = false) :
    (TRef.of (T := ⟨S_, .f32⟩) main_cst_4 h1 h2 h3).ofBuf v = v := cast_eq _ _

/-- The in-degree count — a scatter-add of ones into zeros along `dst` — is the reference's. -/
theorem deg_eq (d : (⟨S1200000, .i32⟩ : BufTy).Contents (Elt Ideal)) :
    Host.scatterAdd (F := Ideal) scatter_S100000_S1200000x1_S1200000_n_0_0_1
        (broadcastInDim S100000 ![] bcast_S_S100000 (constant S_ .f32 0x00000000#32))
        (broadcastInDim S1200000x1 ![0] bcast_S1200000_S1200000x1_0 d)
        (broadcastInDim S1200000 ![] bcast_S_S1200000 (constant S_ .f32 0x3F800000#32))
      = val_main_v3 (F := Ideal) d := by
  unfold Cert.ReferenceIdeal.ReadP.val_main_v3 Cert.ReferenceIdeal.ReadP.val_main_v2 Cert.ReferenceIdeal.ReadP.val_main_v1 Cert.ReferenceIdeal.ReadP.val_main_v0 Cert.ReferenceIdeal.ReadP.val_main_cst Cert.ReferenceIdeal.ReadP.val_main_cst_0
  rfl

set_option maxHeartbeats 4000000 in
/-- The inverse-degree column: `1 / max(deg, 1)` where the degree is positive, zero elsewhere, as a column. The degree
    is named once, so that the two spellings are compared as expressions in it. -/
theorem V3_v11 (c : Dev nD) : V3 m ρ c main_v11 = val_main_v11 (F := Ideal) (m ((c : Thread nD τ).loc main_arg2)) := by
  show StableHlo.after hostOps0_2 (StableHlo.after hostOps0_1 (StableHlo.after hostOps0 (W0 m ρ c))) (Proc.devRef .tc main_v11) = _
  after_results_simp
  rw [deg_eq]
  generalize hD : val_main_v3 (F := Ideal) (W0 m ρ c (Proc.devRef .tc main_arg2)) = D
  rw [toBuf_v10, ofBuf_v5, ofBuf_v9, ofBuf_c0v1, toBuf_c0v1, ofBuf_c0v0, toBuf_c0v0, ofBuf_cst4]
  unfold Cert.ReferenceIdeal.ReadP.val_main_v11 Cert.ReferenceIdeal.ReadP.val_main_v10 Cert.ReferenceIdeal.ReadP.val_main_v9 Cert.ReferenceIdeal.ReadP.val_main_v8 Cert.ReferenceIdeal.ReadP.val_main_v7 Cert.ReferenceIdeal.ReadP.val_main_v6
    Cert.ReferenceIdeal.ReadP.val_main_v5 Cert.ReferenceIdeal.ReadP.val_main_v4 Cert.ReferenceIdeal.ReadP.val_main_call0_v1 Cert.ReferenceIdeal.ReadP.val_main_call0_v0 Cert.ReferenceIdeal.ReadP.val_main_cst_1 Cert.ReferenceIdeal.ReadP.val_main_cst_2
    Cert.ReferenceIdeal.ReadP.val_main_cst_3 Cert.ReferenceIdeal.ReadP.val_main_cst_4
  rw [show val_main_v3 (F := Ideal) (m ((c : Thread nD τ).loc main_arg2)) = D from hD]
set_option maxHeartbeats 4000000 in
theorem V3_v22 (c : Dev nD) : V3 m ρ c main_v22 = shapeCast S1x64 (m ((c : Thread nD τ).loc main_arg5)) shapeCasts_S64_S1x64 := by
  show StableHlo.after hostOps0_2 (StableHlo.after hostOps0_1 (StableHlo.after hostOps0 (W0 m ρ c))) (Proc.devRef .tc main_v22) = _
  after_results_simp <;> rfl

/-! ## What the second grid is entered with, from the first grid's exit contents `W4` -/

set_option maxHeartbeats 4000000 in
theorem V5_v23 (c : Dev nD) : V5 m ρ c main_v23 = W4 m ρ c (Proc.devRef .tc main_v23) := by
  show StableHlo.after hostOps1 (W4 m ρ c) (Proc.devRef .tc main_v23) = _
  after_results_simp <;> rfl
set_option maxHeartbeats 4000000 in
theorem V5_v33 (c : Dev nD) : V5 m ρ c main_v33 = val_main_v21 (F := Ideal) (W4 m ρ c (Proc.devRef .tc main_v23)) (W4 m ρ c (Proc.devRef .tc main_arg1)) (W4 m ρ c (Proc.devRef .tc main_arg2)) := by
  show StableHlo.after hostOps1 (W4 m ρ c) (Proc.devRef .tc main_v33) = _
  after_results_simp <;> rfl
set_option maxHeartbeats 4000000 in
theorem V5_v11 (c : Dev nD) : V5 m ρ c main_v11 = W4 m ρ c (Proc.devRef .tc main_v11) := by
  show StableHlo.after hostOps1 (W4 m ρ c) (Proc.devRef .tc main_v11) = _
  after_results_simp <;> rfl
set_option maxHeartbeats 4000000 in
theorem V5_arg6 (c : Dev nD) : V5 m ρ c main_arg6 = W4 m ρ c (Proc.devRef .tc main_arg6) := by
  show StableHlo.after hostOps1 (W4 m ρ c) (Proc.devRef .tc main_arg6) = _
  after_results_simp <;> rfl
set_option maxHeartbeats 4000000 in
theorem V5_arg7 (c : Dev nD) : V5 m ρ c main_arg7 = W4 m ρ c (Proc.devRef .tc main_arg7) := by
  show StableHlo.after hostOps1 (W4 m ρ c) (Proc.devRef .tc main_arg7) = _
  after_results_simp <;> rfl
set_option maxHeartbeats 4000000 in
theorem V5_arg9 (c : Dev nD) : V5 m ρ c main_arg9 = W4 m ρ c (Proc.devRef .tc main_arg9) := by
  show StableHlo.after hostOps1 (W4 m ρ c) (Proc.devRef .tc main_arg9) = _
  after_results_simp <;> rfl
set_option maxHeartbeats 4000000 in
theorem V5_v34 (c : Dev nD) : V5 m ρ c main_v34 = shapeCast S1x64 (W4 m ρ c (Proc.devRef .tc main_arg8)) shapeCasts_S64_S1x64 := by
  show StableHlo.after hostOps1 (W4 m ρ c) (Proc.devRef .tc main_v34) = _
  after_results_simp <;> rfl
set_option maxHeartbeats 4000000 in
theorem V5_v35 (c : Dev nD) : V5 m ρ c main_v35 = shapeCast S1x16 (W4 m ρ c (Proc.devRef .tc main_arg10)) shapeCasts_S16_S1x16 := by
  show StableHlo.after hostOps1 (W4 m ρ c) (Proc.devRef .tc main_v35) = _
  after_results_simp <;> rfl

/-! ## The first grid leaves every buffer that is not one of its arrays, and its input arrays, as it found them -/

theorem W4_arg1 (c : Dev nD) : W4 m ρ c (Proc.devRef .tc main_arg1) = m ((c : Thread nD τ).loc main_arg1) :=
  (W4_of_ne m ρ c main_arg1 (by decide)).trans (V3_arg1 m ρ c)
theorem W4_arg2 (c : Dev nD) : W4 m ρ c (Proc.devRef .tc main_arg2) = m ((c : Thread nD τ).loc main_arg2) :=
  (W4_of_ne m ρ c main_arg2 (by decide)).trans (V3_arg2 m ρ c)
theorem W4_arg6 (c : Dev nD) : W4 m ρ c (Proc.devRef .tc main_arg6) = m ((c : Thread nD τ).loc main_arg6) :=
  (W4_of_ne m ρ c main_arg6 (by decide)).trans (V3_arg6 m ρ c)
theorem W4_arg7 (c : Dev nD) : W4 m ρ c (Proc.devRef .tc main_arg7) = m ((c : Thread nD τ).loc main_arg7) :=
  (W4_of_ne m ρ c main_arg7 (by decide)).trans (V3_arg7 m ρ c)
theorem W4_arg8 (c : Dev nD) : W4 m ρ c (Proc.devRef .tc main_arg8) = m ((c : Thread nD τ).loc main_arg8) :=
  (W4_of_ne m ρ c main_arg8 (by decide)).trans (V3_arg8 m ρ c)
theorem W4_arg9 (c : Dev nD) : W4 m ρ c (Proc.devRef .tc main_arg9) = m ((c : Thread nD τ).loc main_arg9) :=
  (W4_of_ne m ρ c main_arg9 (by decide)).trans (V3_arg9 m ρ c)
theorem W4_arg10 (c : Dev nD) : W4 m ρ c (Proc.devRef .tc main_arg10) = m ((c : Thread nD τ).loc main_arg10) :=
  (W4_of_ne m ρ c main_arg10 (by decide)).trans (V3_arg10 m ρ c)
theorem W4_v11 (c : Dev nD) : W4 m ρ c (Proc.devRef .tc main_v11) = V3 m ρ c main_v11 :=
  (W4_arr m ρ c 2).trans (((dat0 (V3 m ρ) c).arrAt_in 2 rfl _).trans (A_eq0 (V3 m ρ) c 2))

end Cert.KernelIdeal.Hand

end
-- ==== Proof.KernelValue.lean ====
import proofs.«126656_j57638461112953_2_alg».proof.Proof.KernelRun
import proofs.«126656_j57638461112953_2_alg».proof.Proof.Region0
import proofs.«126656_j57638461112953_2_alg».proof.Proof.Region1
import proofs.«126656_j57638461112953_2_alg».proof.Proof.Glue
import Idealize.ShloMosaic.Lib.ValueLayout

set_option maxRecDepth 16384

noncomputable section

namespace Cert.KernelIdeal.Hand

open Cert.KernelIdeal Cert.KernelIdeal.Gen Cert.Sage
open Idealize.ShloMosaic Idealize.ShloMosaic.TcCoe Idealize.ShloMosaic.ValueIdx Idealize.SL.Sem
open Cert.ReferenceIdeal.ReadP (val_main_v21 val_main_v11)

/-! # The kernel program's result as one function of its arguments

The first grid leaves the first layer of the features, their neighbour sums and the inverse degrees; the host
operations between the grids sum the neighbours' rows of that array; the second grid leaves the head of the two.
The biases reach the grids as `[1, 64]` and `[1, 16]` reshapes, whose one row is the bias vector. -/

variable (m : (ℓ : Loc nD τ sig) → Buf (Elt Ideal) ℓ) (ρ : Dev nD → PrngReg)

/-- The first layer's output, of the arguments. -/
abbrev hidden (c : Dev nD) : Mat 100000 64 :=
  layer (n := 100000) (m ((c : Thread nD τ).loc main_arg0)) (val_main_v21 (F := Ideal) (m ((c : Thread nD τ).loc main_arg0)) (m ((c : Thread nD τ).loc main_arg1)) (m ((c : Thread nD τ).loc main_arg2))) (val_main_v11 (F := Ideal) (m ((c : Thread nD τ).loc main_arg2)))
    (m ((c : Thread nD τ).loc main_arg3)) (m ((c : Thread nD τ).loc main_arg4)) (fun k => (m ((c : Thread nD τ).loc main_arg5)) (ix1 k))

/-- The class probabilities, of the arguments. -/
abbrev result (c : Dev nD) : Buf (Elt Ideal) ((c.tc : Thread nD τ).loc main_v36) :=
  head (n := 100000) (hidden m c) (val_main_v21 (F := Ideal) (hidden m c) (m ((c : Thread nD τ).loc main_arg1)) (m ((c : Thread nD τ).loc main_arg2))) (val_main_v11 (F := Ideal) (m ((c : Thread nD τ).loc main_arg2)))
    (m ((c : Thread nD τ).loc main_arg6)) (m ((c : Thread nD τ).loc main_arg7)) (fun k => (m ((c : Thread nD τ).loc main_arg8)) (ix1 k)) (m ((c : Thread nD τ).loc main_arg9)) (fun q => (m ((c : Thread nD τ).loc main_arg10)) (ix1 q))

/-- The first grid's array at its exit. -/
theorem exit0 (c : Dev nD) : W4 m ρ c (Proc.devRef .tc main_v23) = hidden m c := by
  refine (W4_arr m ρ c 6).trans ((final0 (V3 m ρ) c).trans ?_)
  show layer (n := 100000) (V3 m ρ c main_arg0) (V3 m ρ c main_v21) (V3 m ρ c main_v11) (V3 m ρ c main_arg3) (V3 m ρ c main_arg4)
      (fun k => V3 m ρ c main_v22 (ix2 (0 : Fin 1) k)) = _
  rw [V3_arg0, V3_v21, V3_v11, V3_arg3, V3_arg4, V3_v22]
  simp only [shapeCast_a_1a_apply]

/-- The result array at the program's end. -/
theorem kernel_value (c : Dev nD) : W6 m ρ c (Proc.devRef .tc main_v36) = result m c := by
  refine (W6_arr m ρ c 8).trans ((final1 (V5 m ρ) c).trans ?_)
  show head (n := 100000) (V5 m ρ c main_v23) (V5 m ρ c main_v33) (V5 m ρ c main_v11) (V5 m ρ c main_arg6) (V5 m ρ c main_arg7)
      (fun k => V5 m ρ c main_v34 (ix2 (0 : Fin 1) k)) (V5 m ρ c main_arg9) (fun q => V5 m ρ c main_v35 (ix2 (0 : Fin 1) q)) = _
  rw [V5_v23, V5_v33, V5_v11, V5_arg6, V5_arg7, V5_v34, V5_arg9, V5_v35, exit0, W4_arg1, W4_arg2, W4_arg6, W4_arg7, W4_arg8,
    W4_arg9, W4_arg10, W4_v11, V3_v11]
  simp only [shapeCast_a_1a_apply]

/-- THE KERNEL PROGRAM'S RUN: the result array ends at `result` of the arguments, the arguments unchanged. -/
theorem run_value : θ_run defs (onTc (τ := τ) (main (F := Ideal))) ⟨m, fun _ => 0, ρ⟩ (fun r => ∀ c : Dev nD,
      r.2.mem ((c.tc : Thread nD τ).loc main_v36) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (kernel_value m ρ c), (h c).2⟩) (run_final m ρ)

end Cert.KernelIdeal.Hand

end
-- ==== Proof.lean ====
/-
  A two-layer mean-aggregation graph network with a softmax classifier, computed two ways.

  Both programs take node features `x` (100000 × 64), an edge list `src → dst` (1200000 edges), two layers of weights
  and a classifier. Both first count each node's in-degree and invert it (zero for a node with no in-edge), and for each
  layer sum every node's in-neighbours' feature rows (a gather along `src`, a scatter-add along `dst`); a layer is
      h'(r, ·) = max( h(r, ·)·W_self + (sum of in-neighbours' rows · 1/deg(r))·W_neigh + b , 0 ),
  and the output is the softmax over sixteen classes of `h₂·W_fc + b_fc`, in the shifted form
  `exp(l − max l) / Σ exp(l − max l)`.

  The reference does all of this on whole arrays. The kernel program keeps the degree count and the two neighbour sums
  as the same whole-array operations, and computes each layer in twenty blocks of 5000 rows, the second layer's blocks
  going straight on to the classifier and the softmax. Over the extended reals the two agree entry by entry for EVERY
  input: an entry of a layer, of the logits, of a row maximum or of a row sum depends on its own row only, so computing
  rows in blocks is computing them all at once; a matrix product into a zero accumulator is the same sum as a host
  product; a change of float format is the identity; and taking a row maximum once more against `−∞` changes nothing.
  No step uses that the inputs are finite.

  The modules: `Spec` states one layer and the classifier's softmax on one node; `Region0`, `Payload1` and `Region1`
  show each grid leaves the layer, or the head, of the arrays it is entered with; `Glue` reads those arrays back through
  the host operations; `KernelValue` composes them into the kernel program's result as one function of the arguments;
  `RefValue` shows the reference's stages are the same function; the claims below put the two runs side by side.
-/
import proofs.«126656_j57638461112953_2_alg».proof.Defs
import proofs.«126656_j57638461112953_2_alg».proof.Proof.Gen.Kernel
import proofs.«126656_j57638461112953_2_alg».proof.Proof.Gen.Kernel.Frame
import proofs.«126656_j57638461112953_2_alg».proof.Proof.Gen.KernelIdeal
import proofs.«126656_j57638461112953_2_alg».proof.Proof.Gen.KernelIdeal.Frame
import proofs.«126656_j57638461112953_2_alg».proof.Proof.Gen.ReferenceIdeal
import proofs.«126656_j57638461112953_2_alg».proof.Proof.Gen.Pre_finite_inputs
import proofs.«126656_j57638461112953_2_alg».proof.Proof.RefRun
import proofs.«126656_j57638461112953_2_alg».proof.Proof.RefRead
import proofs.«126656_j57638461112953_2_alg».proof.Proof.RefValue
import proofs.«126656_j57638461112953_2_alg».proof.Proof.KernelValue
import Idealize.ShloMosaic.Adequacy
import Idealize.ShloMosaic.Init

noncomputable section

namespace Cert.Proof

open Idealize.ShloMosaic Idealize.SL.Sem

/-- The word-level kernel program runs and keeps its arguments. -/
theorem frame_k [Cert.Kernel.Facts] [Cert.Pre_finite_inputs.Facts] : Cert.frame_Kernel :=
  fun m ρ _ => Cert.Kernel.Gen.frame m ρ

/-- So does the idealized kernel program. -/
theorem frame_ki [Cert.KernelIdeal.Facts] [Cert.Pre_finite_inputs.Facts] : Cert.frame_KernelIdeal :=
  fun m ρ _ => Cert.KernelIdeal.Gen.frame m ρ

/-- The reference keeps its arguments: its run with the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.ValueP.run (F := Ideal) m ρ)

/-- The idealization rewrote nothing. -/
theorem preserves : Cert.preserves_Kernel_KernelIdeal := trivial

/-- Over the extended reals the kernel program's class probabilities and the reference's are one function of the
    arguments: the kernel's run ends at `result` of its arguments, the reference's stages compose to the same layer and
    head of arguments that agree. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Hand.result m c, Cert.KernelIdeal.Hand.run_value m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v64_eq, Cert.ReferenceIdeal.Hand.ref_head, Cert.ReferenceIdeal.Hand.ref_agg2,
    Cert.ReferenceIdeal.Hand.ref_layer1]
  obtain ⟨h0, h1, h2, h3, h4, h5, h6, h7, h8, h9, h10⟩ := hagree c
  rw [h0, h1, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
